-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x64 .f32) (main_arg12 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 98
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S100000x128, .f32⟩
  | .hbm, ⟨77, _⟩ => ⟨S100000x1, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1600000, .i32⟩
  | .hbm, ⟨82, _⟩ => ⟨S1600000, .i1⟩
  | .hbm, ⟨83, _⟩ => ⟨S_, .i32⟩
  | .hbm, ⟨84, _⟩ => ⟨S1600000, .i32⟩
  | .hbm, ⟨85, _⟩ => ⟨S1600000, .i32⟩
  | .hbm, ⟨86, _⟩ => ⟨S1600000, .i32⟩
  | .hbm, ⟨87, _⟩ => ⟨S1600000x1, .i32⟩
  | .hbm, ⟨88, _⟩ => ⟨S1600000x128, .f32⟩
  | .hbm, ⟨89, _⟩ => ⟨S_, .f32⟩
  | .hbm, ⟨90, _⟩ => ⟨S100000x128, .f32⟩
  | .hbm, ⟨91, _⟩ => ⟨S1600000x1, .i32⟩
  | .hbm, ⟨92, _⟩ => ⟨S100000x128, .f32⟩
  | .hbm, ⟨93, _⟩ => ⟨S100000x1, .f32⟩
  | .hbm, ⟨94, _⟩ => ⟨S100000x128, .f32⟩
  | .hbm, ⟨95, _⟩ => ⟨S100000x128, .f32⟩
  | .hbm, ⟨96, _⟩ => ⟨S1x64, .f32⟩
  | .hbm, ⟨97, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x64, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_9 : Ref sig .tc := ⟨.hbm, 80, rfl⟩
abbrev main_v56 : Ref sig .tc := ⟨.hbm, 81, rfl⟩
abbrev main_v57 : Ref sig .tc := ⟨.hbm, 82, rfl⟩
abbrev main_c_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v28) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v48) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v68) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v69) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v70) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 200
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x64, .f32⟩
  | 12 => ⟨S64, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000x1, .f32⟩
  | 32 => ⟨S100000x128, .f32⟩
  | 33 => ⟨S100000x128, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000x128, .f32⟩
  | 43 => ⟨S_, .f32⟩
  | 44 => ⟨S100000x128, .f32⟩
  | 45 => ⟨S1600000x1, .i32⟩
  | 46 => ⟨S100000x128, .f32⟩
  | 47 => ⟨S100000x1, .f32⟩
  | 48 => ⟨S100000x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S_, .f32⟩
  | 55 => ⟨S100000, .f32⟩
  | 56 => ⟨S100000x1, .f32⟩
  | 57 => ⟨S_, .f32⟩
  | 58 => ⟨S100000x1, .f32⟩
  | 59 => ⟨S100000x1, .f32⟩
  | 60 => ⟨S100000x128, .f32⟩
  | 61 => ⟨S100000x128, .f32⟩
  | 62 => ⟨S100000x128, .f32⟩
  | 63 => ⟨S_, .f32⟩
  | 64 => ⟨S100000, .f32⟩
  | 65 => ⟨S100000x1, .f32⟩
  | 66 => ⟨S_, .f32⟩
  | 67 => ⟨S100000x1, .f32⟩
  | 68 => ⟨S100000x1, .f32⟩
  | 69 => ⟨S100000x128, .f32⟩
  | 70 => ⟨S100000x128, .f32⟩
  | 71 => ⟨S_, .f32⟩
  | 72 => ⟨S100000x1, .f32⟩
  | 73 => ⟨S100000x1, .f32⟩
  | 74 => ⟨S100000x1, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .f32⟩
  | 87 => ⟨S1600000, .f32⟩
  | 88 => ⟨S_, .f32⟩
  | 89 => ⟨S100000, .f32⟩
  | 90 => ⟨S1600000x1, .i32⟩
  | 91 => ⟨S100000, .f32⟩
  | 92 => ⟨S_, .f32⟩
  | 93 => ⟨S100000, .f32⟩
  | 94 => ⟨S1600000x1, .i32⟩
  | 95 => ⟨S100000, .f32⟩
  | 96 => ⟨S_, .f32⟩
  | 97 => ⟨S100000, .f32⟩
  | 98 => ⟨S100000, .f32⟩
  | 99 => ⟨S100000, .f32⟩
  | 100 => ⟨S_, .f32⟩
  | 101 => ⟨S100000, .f32⟩
  | 102 => ⟨S100000, .f32⟩
  | 103 => ⟨S100000, .f32⟩
  | 104 => ⟨S100000x1, .f32⟩
  | 105 => ⟨S100000x128, .f32⟩
  | 106 => ⟨S100000x128, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S100000x128, .f32⟩
  | 6 => ⟨S100000x128, .f32⟩
  | 7 => ⟨S100000x128, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S_, .f32⟩
  | 17 => ⟨S100000x1, .f32⟩
  | 18 => ⟨S100000x1, .f32⟩
  | 19 => ⟨S100000x1, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S_, .f32⟩
  | 32 => ⟨S1600000, .f32⟩
  | 33 => ⟨S_, .f32⟩
  | 34 => ⟨S100000, .f32⟩
  | 35 => ⟨S1600000x1, .i32⟩
  | 36 => ⟨S100000, .f32⟩
  | 37 => ⟨S_, .f32⟩
  | 38 => ⟨S100000, .f32⟩
  | 39 => ⟨S1600000x1, .i32⟩
  | 40 => ⟨S100000, .f32⟩
  | 41 => ⟨S_, .f32⟩
  | 42 => ⟨S100000, .f32⟩
  | 43 => ⟨S100000, .f32⟩
  | 44 => ⟨S100000, .f32⟩
  | 45 => ⟨S_, .f32⟩
  | 46 => ⟨S100000, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x1, .f32⟩
  | 66 => ⟨S100000x128, .f32⟩
  | 67 => ⟨S100000x128, .f32⟩
  | 68 => ⟨S100000x64, .f32⟩
  | 69 => ⟨S1x64, .f32⟩
  | 70 => ⟨S100000x64, .f32⟩
  | 71 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_2 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call0_cst : Ref sig .tc := ⟨.hbm, 83, rfl⟩
abbrev main_call0_v0 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_cst_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_13 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_c_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_19 : Ref sig .tc := ⟨.hbm, 127, rfl⟩
abbrev main_v91 : Ref sig .tc := ⟨.hbm, 128, rfl⟩
abbrev main_v92 : Ref sig .tc := ⟨.hbm, 129, rfl⟩
abbrev main_cst_20 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_21 : Ref sig .tc := ⟨.hbm, 136, rfl⟩
abbrev main_v98 : Ref sig .tc := ⟨.hbm, 137, rfl⟩
abbrev main_v99 : Ref sig .tc := ⟨.hbm, 138, rfl⟩
abbrev main_cst_22 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_cst_23 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_call1_cst : Ref sig .tc := ⟨.hbm, 156, rfl⟩
abbrev main_call1_v0 : Ref sig .tc := ⟨.hbm, 157, rfl⟩
abbrev main_v115 : Ref sig .tc := ⟨.hbm, 158, rfl⟩
abbrev main_cst_24 : Ref sig .tc := ⟨.hbm, 159, rfl⟩
abbrev main_v116 : Ref sig .tc := ⟨.hbm, 160, rfl⟩
abbrev main_cst_25 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_26 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_27 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_28 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_29 : Ref sig .tc := ⟨.hbm, 180, rfl⟩
abbrev main_v132 : Ref sig .tc := ⟨.hbm, 181, rfl⟩
abbrev main_v133 : Ref sig .tc := ⟨.hbm, 182, rfl⟩
abbrev main_c_30 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_31 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's whole run, read at every buffer.

  The program is three pipelined regions among stretches of host operations. Its buffers' contents at each boundary are
  a fold from the launch memory (after a stretch: the stretch's operations applied; after a region: the region's arrays
  at what its write-backs leave). Every weakly fair execution terminates without a fault, and in the final state EVERY
  unscoped buffer of every core holds the last boundary's contents. The result buffer and the thirteen arguments are
  among those buffers; what the last boundary holds at each is computed elsewhere.
-/
import proofs.«182177_j74929999446102_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer ends at the
    last boundary's contents: the segments' launch, the last thread state read against the final state. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

end Cert.Gcn.KernelRun

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Rows.lean ====
/-
  The mathematics of one row of a graph-convolution layer's dense part, on the extended reals.

  A layer takes a row x of 128 numbers, forms y_j = (∑ k, x_k · W_{k,j}) + b_j, and (for the two hidden layers)
  normalises the row and clips at zero:
      mean(y) = (∑ k, y_k) / 128,   d_j = y_j − mean(y),   var = mean(d · d),
      out_j  = max (d_j · rsqrt (var + ε) · g_j + β_j) 0 .
  Every row is treated alone, so the same function describes a row of a 2000-row block and a row of the whole
  100000-row array: that is what lets a block of the result be read as a block of one whole-array function.

  Also here: a vector [a] viewed as a column [a, 1], read at an index.
-/
import proofs.«182177_j74929999446102_1_alg».proof.Proof.LibDense

noncomputable section

namespace Cert.Gcn

open Idealize.ShloMosaic Idealize.ShloMosaic.ValueIdx

/-- An `[a]` vector cast to an `[a, 1]` column reads, at `(p, u)`, the vector at `p`. -/
theorem col_of_vec_apply {α : Type} {a : ℕ} (x : (⟨1, ![a]⟩ : Shape).Idx → α)
    (h : (⟨1, ![a]⟩ : Shape).ShapeCasts ⟨2, ![a, 1]⟩) (p : Fin a) (u : Fin 1) :
    shapeCast (⟨2, ![a, 1]⟩ : Shape) x h (ix2 p u) = x (ix1 p) :=
  shapeCast_apply x h _ _ (by
    have hu : u.val = 0 := by omega
    rw [Shape.rowMajor_val_two, Shape.rowMajor_val_one]
    show p.val = p.val * 1 + u.val
    omega)

/-- One entry of a dense row: the row times column `j` of the weights, plus the bias. -/
def denseRow {N : ℕ} (x : Fin 128 → EReal) (W : (⟨2, ![128, N]⟩ : Shape).Idx → EReal) (b : Fin N → EReal)
    (j : Fin N) : EReal :=
  (∑ k : Fin 128, x k * W (ix2 k j)) + b j

/-- The mean of a row of 128 entries: their sum divided by 128 (the float word of 128.0). -/
def rowMean (y : Fin 128 → EReal) : EReal :=
  Ideal.div (∑ k : Fin 128, y k) (Ideal.ofBits .f32 0x43000000#32)

/-- Layer normalisation of a row followed by the clip at zero, entry `j`. -/
def lnRelu (y g be : Fin 128 → EReal) (j : Fin 128) : EReal :=
  max ((y j - rowMean y) * Ideal.rsqrt (rowMean (fun k => (y k - rowMean y) * (y k - rowMean y))
      + Ideal.ofBits .f32 0x3727C5AC#32) * g j + be j) (Ideal.ofBits .f32 0x00000000#32)

end Cert.Gcn

end
-- ==== Proof.KernelPayload.lean ====
/-
  What the kernel bodies compute, read at an index of the block.

  The two hidden-layer bodies store, for a block of 2000 rows x, the value  max (LN (x·W + b) · g + β) 0  where LN
  normalises each row by its own mean and variance; the last body stores  x·W + b  with 64 output columns. Each is
  rewritten here as a composition of a few named block operations (the product plus bias; the column of row means; the
  centred block; the normalised, scaled, shifted and clipped block), and each of those is read at (p, j): entry j of the
  row function of Rows.lean applied to row p of the block. Narrowing to bf16 before the product is the identity on the
  extended reals, and a product into the zero accumulator is the plain sum over the 128 contracted entries.
-/
import proofs.«182177_j74929999446102_1_alg».proof.Proof.Gen.KernelIdeal.Skeleton
import proofs.«182177_j74929999446102_1_alg».proof.Proof.Rows

noncomputable section

namespace Cert.Gcn.Kernel

open Idealize.ShloMosaic Idealize.ShloMosaic.ValueIdx Cert.KernelIdeal Cert.KernelIdeal.Gen Cert.Gcn

/-- The product of a block with the weights plus the bias row spread down the rows (128 output columns). -/
def affine (x0 : FVec Ideal S2000x128 .f32) (w : FVec Ideal S128x128 .f32) (b : FVec Ideal S1x128 .f32) :
    FVec Ideal S2000x128 .f32 :=
  addf (matmul dot_S2000x128_S128x128_S2000x128_1_0_0_1_n_n none
        (truncf .bf16 (shapeCast S2000x128 x0 shapeCasts_S2000x128_S2000x128) bitsLt_bf16_f32)
        (truncf .bf16 w bitsLt_bf16_f32) (constant S2000x128 .f32 0x00000000#32))
    (broadcastTo S2000x128 (shapeCast S1x128 b shapeCasts_S1x128_S1x128) broadcasts_S1x128_S2000x128)

/-- The column of row means of a block: each row's lane sum divided by 128. -/
def meanCol (v : FVec Ideal S2000x128 .f32) : FVec Ideal S2000x1 .f32 :=
  divf (shapeCast S2000x1 (multiReduction .add [1] S2000 v 0x00000000#32 reduces_S2000x128_S2000 (.inl rfl) rfl)
      shapeCasts_S2000_S2000x1)
    (broadcast S2000x1 (Scalar.ofBits .f32 0x43000000#32))

/-- A block minus its row means. -/
def centred (v : FVec Ideal S2000x128 .f32) : FVec Ideal S2000x128 .f32 :=
  subf v (broadcastTo S2000x128 (meanCol v) broadcasts_S2000x1_S2000x128)

/-- Layer normalisation of each row, scale, shift, clip at zero. -/
def normRelu (y : FVec Ideal S2000x128 .f32) (g be : FVec Ideal S1x128 .f32) : FVec Ideal S2000x128 .f32 :=
  maximumf
    (addf
      (mulf
        (mulf (centred y)
          (broadcastTo S2000x128
            (rsqrt (addf (meanCol (mulf (centred y) (centred y))) (broadcast S2000x1 (Scalar.ofBits .f32 0x3727C5AC#32))))
            broadcasts_S2000x1_S2000x128))
        (broadcastTo S2000x128 (shapeCast S1x128 g shapeCasts_S1x128_S1x128) broadcasts_S1x128_S2000x128))
      (broadcastTo S2000x128 (shapeCast S1x128 be shapeCasts_S1x128_S1x128) broadcasts_S1x128_S2000x128))
    (broadcast S2000x128 (Scalar.ofBits .f32 0x00000000#32))

/-- The first hidden layer's stored value is that composition. -/
theorem pay0_eq (x0 : FVec Ideal S2000x128 .f32) (w : FVec Ideal S128x128 .f32) (b g be : FVec Ideal S1x128 .f32) :
    k0_pay1 (F := Ideal) x0 w b g be = normRelu (affine x0 w b) g be := rfl

/-- The second hidden layer's stored value is the same composition. -/
theorem pay1_eq (x0 : FVec Ideal S2000x128 .f32) (w : FVec Ideal S128x128 .f32) (b g be : FVec Ideal S1x128 .f32) :
    k1_pay1 (F := Ideal) x0 w b g be = normRelu (affine x0 w b) g be := rfl

/-- The square root's reciprocal on a block is entrywise. -/
theorem rsqrt_apply {s : Shape} {φ : FTy} (v : FVec Ideal s φ) (i : s.Idx) : rsqrt v i = Ideal.rsqrt (v i) := rfl

/-- The product plus bias at (p, j): the dense row function of row p. -/
theorem affine_apply (x0 : FVec Ideal S2000x128 .f32) (w : FVec Ideal S128x128 .f32) (b : FVec Ideal S1x128 .f32)
    (p : Fin 2000) (j : Fin 128) :
    affine x0 w b (ix2 p j) = denseRow (fun k => x0 (ix2 p k)) w (fun j => b (ix2 (0 : Fin 1) j)) j := by
  unfold affine denseRow
  refine (LibDense.dense_apply dot_S2000x128_S128x128_S2000x128_1_0_0_1_n_n.wf _ _ _ _ p j).trans ?_
  rw [shapeCast_self, shapeCast_self]
  rfl

/-- A lane sum at row p: the sum of the row's 128 entries. -/
theorem laneSum_apply (v : FVec Ideal S2000x128 .f32) (p : Fin 2000) :
    multiReduction (F := Ideal) .add [1] S2000 v 0x00000000#32 reduces_S2000x128_S2000 (.inl rfl) rfl (ix1 p)
      = ∑ k : Fin 128, v (ix2 p k) := by
  refine (Ideal.multiReduction_add_single v 0x00000000#32 reduces_S2000x128_S2000 (.inl rfl) rfl (ix1 p)).trans ?_
  refine Finset.sum_congr rfl fun k _ => congrArg v ?_
  funext a
  apply Fin.ext
  match a with
  | ⟨0, _⟩ => rfl
  | ⟨1, _⟩ => rfl

/-- The column of row means at (p, ·): the mean of row p. -/
theorem meanCol_apply (v : FVec Ideal S2000x128 .f32) (p : Fin 2000) (u : Fin 1) :
    meanCol v (ix2 p u) = rowMean (fun k => v (ix2 p k)) :=
  congrArg (fun z => Ideal.div z (Ideal.ofBits .f32 0x43000000#32))
    ((col_of_vec_apply _ shapeCasts_S2000_S2000x1 p u).trans (laneSum_apply v p))

/-- The centred block at (p, j). -/
theorem centred_apply (v : FVec Ideal S2000x128 .f32) (p : Fin 2000) (j : Fin 128) :
    centred v (ix2 p j) = v (ix2 p j) - rowMean (fun k => v (ix2 p k)) :=
  congrArg (fun z => v (ix2 p j) - z)
    ((LibDense.spread_col_apply (meanCol v) broadcasts_S2000x1_S2000x128 p j).trans (meanCol_apply v p 0))

/-- The normalised, scaled, shifted, clipped block at (p, j): the row function of row p. -/
theorem normRelu_apply (y : FVec Ideal S2000x128 .f32) (g be : FVec Ideal S1x128 .f32) (p : Fin 2000) (j : Fin 128) :
    normRelu y g be (ix2 p j)
      = lnRelu (fun k => y (ix2 p k)) (fun j => g (ix2 (0 : Fin 1) j)) (fun j => be (ix2 (0 : Fin 1) j)) j := by
  unfold normRelu lnRelu
  simp only [maximumf_apply, addf_apply, mulf_apply, broadcast_apply, rsqrt_apply, LibDense.spread_col_apply,
    broadcastTo_1b_ab_apply, shapeCast_self, centred_apply, meanCol_apply]
  rfl

/-- The first hidden layer's stored value at (p, j). -/
theorem pay0_apply (x0 : FVec Ideal S2000x128 .f32) (w : FVec Ideal S128x128 .f32) (b g be : FVec Ideal S1x128 .f32)
    (p : Fin 2000) (j : Fin 128) :
    k0_pay1 (F := Ideal) x0 w b g be (ix2 p j)
      = lnRelu (denseRow (fun k => x0 (ix2 p k)) w (fun j => b (ix2 (0 : Fin 1) j)))
          (fun j => g (ix2 (0 : Fin 1) j)) (fun j => be (ix2 (0 : Fin 1) j)) j := by
  rw [pay0_eq, normRelu_apply]
  simp only [affine_apply]

/-- The second hidden layer's stored value at (p, j). -/
theorem pay1_apply (x0 : FVec Ideal S2000x128 .f32) (w : FVec Ideal S128x128 .f32) (b g be : FVec Ideal S1x128 .f32)
    (p : Fin 2000) (j : Fin 128) :
    k1_pay1 (F := Ideal) x0 w b g be (ix2 p j)
      = lnRelu (denseRow (fun k => x0 (ix2 p k)) w (fun j => b (ix2 (0 : Fin 1) j)))
          (fun j => g (ix2 (0 : Fin 1) j)) (fun j => be (ix2 (0 : Fin 1) j)) j := by
  rw [pay1_eq, normRelu_apply]
  simp only [affine_apply]

/-- The last layer's stored value at (p, j): the dense row function with 64 output columns. -/
theorem pay2_apply (x0 : FVec Ideal S2000x128 .f32) (w : FVec Ideal S128x64 .f32) (b : FVec Ideal S1x64 .f32)
    (p : Fin 2000) (j : Fin 64) :
    k2_pay1 (F := Ideal) x0 w b (ix2 p j) = denseRow (fun k => x0 (ix2 p k)) w (fun j => b (ix2 (0 : Fin 1) j)) j := by
  unfold k2_pay1 denseRow
  refine (LibDense.dense_apply dot_S2000x128_S128x64_S2000x64_1_0_0_1_n_n.wf _ _ _ _ p j).trans ?_
  rw [shapeCast_self, shapeCast_self]
  rfl

end Cert.Gcn.Kernel

end
-- ==== Proof.Layers.lean ====
/-
  The network as one function of its thirteen arguments, on the extended reals.

  Three graph-convolution layers. Each layer first aggregates over the edges: the node features are scaled by the
  source-side degree norm, gathered along the edges' sources, summed into the edges' targets, and scaled by the
  target-side degree norm (`agg`; the two degree norms `degNorm src`, `degNorm dst` are 1 / sqrt (max (degree, 1))).
  The aggregation is carried as ONE opaque function of its inputs: both programs apply the very same host operations,
  so nothing about gather or scatter is ever opened. Then each layer applies its dense part row by row (Rows.lean):
  the two hidden layers `hidden` (product, bias, layer normalisation, scale, shift, clip at zero), the last `plain`
  (product and bias, 64 columns). `gcn` composes them.
-/
import proofs.«182177_j74929999446102_1_alg».proof.Proof.Gen.KernelIdeal
import proofs.«182177_j74929999446102_1_alg».proof.Proof.Rows

noncomputable section

namespace Cert.Gcn

open Idealize.ShloMosaic Idealize.ShloMosaic.ValueIdx Cert.KernelIdeal Cert.KernelIdeal.Gen

/-- A 1-D vector read as a function of its one coordinate. -/
def vec {n : ℕ} (v : (⟨1, ![n]⟩ : Shape).Idx → EReal) : Fin n → EReal := fun j => v (ix1 j)

/-- The degree norm of an index array: how often each node occurs, at least 1, to the power −1/2. -/
def degNorm (idx : IVec S1600000 32) : FVec Ideal S100000 .f32 :=
  Host.rsqrt (F := Ideal) (maximumf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 idx)
      (broadcastInDim S1600000 ![] bcast_S_S1600000 (constant (F := Ideal) S_ .f32 0x3F800000#32)))
    (broadcastInDim S100000 ![] bcast_S_S100000 (constant (F := Ideal) S_ .f32 0x3F800000#32)))

/-- Aggregation over the edges with given source-side and target-side norms. -/
def agg (h : FVec Ideal S100000x128 .f32) (src dst : IVec S1600000 32) (no ni : FVec Ideal S100000 .f32) :
    FVec Ideal S100000x128 .f32 :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128
        (mulf h (broadcastInDim S100000x128 ![0, 1] bcast_S100000x1_S100000x128_0_1
          (broadcastInDim S100000x1 ![0] bcast_S100000_S100000x1_0 no)))
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0 ni))

/-- A hidden layer's dense part at row r, column j. -/
def hiddenAt (X : FVec Ideal S100000x128 .f32) (W : FVec Ideal S128x128 .f32) (b g be : Fin 128 → EReal)
    (r : Fin 100000) (j : Fin 128) : EReal :=
  lnRelu (denseRow (fun k => X (ix2 r k)) W b) g be j

/-- A hidden layer's dense part on the whole array. -/
def hidden (X : FVec Ideal S100000x128 .f32) (W : FVec Ideal S128x128 .f32) (b g be : Fin 128 → EReal) :
    FVec Ideal S100000x128 .f32 :=
  fun i => hiddenAt X W b g be (i 0) (i 1)

/-- The last layer's dense part at row r, column j. -/
def plainAt (X : FVec Ideal S100000x128 .f32) (W : FVec Ideal S128x64 .f32) (b : Fin 64 → EReal)
    (r : Fin 100000) (j : Fin 64) : EReal :=
  denseRow (fun k => X (ix2 r k)) W b j

/-- The last layer's dense part on the whole array. -/
def plain (X : FVec Ideal S100000x128 .f32) (W : FVec Ideal S128x64 .f32) (b : Fin 64 → EReal) :
    FVec Ideal S100000x64 .f32 :=
  fun i => plainAt X W b (i 0) (i 1)

/-- The whole network. -/
def gcn (feats : FVec Ideal S100000x128 .f32) (src dst : IVec S1600000 32)
    (W0 : FVec Ideal S128x128 .f32) (b0 g0 be0 : FVec Ideal S128 .f32)
    (W1 : FVec Ideal S128x128 .f32) (b1 g1 be1 : FVec Ideal S128 .f32)
    (W2 : FVec Ideal S128x64 .f32) (b2 : FVec Ideal S64 .f32) : FVec Ideal S100000x64 .f32 :=
  plain
    (agg
      (hidden
        (agg (hidden (agg feats src dst (degNorm src) (degNorm dst)) W0 (vec b0) (vec g0) (vec be0))
          src dst (degNorm src) (degNorm dst))
        W1 (vec b1) (vec g1) (vec be1))
      src dst (degNorm src) (degNorm dst))
    W2 (vec b2)

end Cert.Gcn

end
-- ==== Proof.BlockRead.lean ====
/-
  Reading a block of a row-wise function: the general step shared by the three regions.

  If a 2000-row block x0 is rows T … T + 1999 of an array X (its element (p, k) sits at (T + p, k)), and the other
  operands are whole arrays read through the identity, then the hidden layer's stored value at (p, q) is the whole-array
  hidden layer of X at (T + p, q); likewise for the last layer.
-/
import proofs.«182177_j74929999446102_1_alg».proof.Proof.KernelPayload
import proofs.«182177_j74929999446102_1_alg».proof.Proof.Layers

noncomputable section

namespace Cert.Gcn.Kernel

open Idealize.ShloMosaic Idealize.ShloMosaic.ValueIdx Cert.KernelIdeal Cert.KernelIdeal.Gen Cert.Gcn

/-- A block read through an embedding that moves no coordinate is the array itself. -/
theorem whole_read {S : Shape} {α : Type} (A x : S.Idx → α) (e : S.Idx → S.Idx) (he : ∀ y a, (e y a).val = (y a).val)
    (hx : ∀ y, x y = A (e y)) : x = A :=
  funext fun y => (hx y).trans (congrArg A (funext fun a => Fin.ext (he y a)))

/-- The offsets `![0, 0]` are the zero offsets. -/
theorem hz : (![0, 0] : Fin 2 → Nat) = fun _ => 0 := funext fun a => by fin_cases a <;> rfl

/-- Rows of a block are rows of the array: the dense row read through the block. -/
theorem row_of_block (X : FVec Ideal S100000x128 .f32) (x0 : FVec Ideal S2000x128 .f32) (T : ℕ)
    (e0 : S2000x128.Idx → S100000x128.Idx)
    (h00 : ∀ y, (e0 y 0).val = T + (y 0).val) (h01 : ∀ y, (e0 y 1).val = (y 1).val)
    (hx0 : ∀ y, x0 y = X (e0 y)) (r : Fin 100000) (p : Fin 2000) (hr : r.val = T + p.val) :
    (fun k : Fin 128 => x0 (ix2 p k)) = fun k : Fin 128 => X (ix2 r k) := by
  funext k
  rw [hx0]
  refine congrArg X (funext fun a => Fin.ext ?_)
  match a with
  | ⟨0, _⟩ => exact (h00 _).trans hr.symm
  | ⟨1, _⟩ => exact h01 _

/-- A hidden layer's stored value at a block index is the whole-array hidden layer at the element's place. -/
theorem hidden_block (pay : FVec Ideal S2000x128 .f32 → FVec Ideal S128x128 .f32 → FVec Ideal S1x128 .f32 →
      FVec Ideal S1x128 .f32 → FVec Ideal S1x128 .f32 → FVec Ideal S2000x128 .f32)
    (hpay : ∀ x0 w b g be (p : Fin 2000) (j : Fin 128), pay x0 w b g be (ix2 p j)
      = lnRelu (denseRow (fun k => x0 (ix2 p k)) w (fun j => b (ix2 (0 : Fin 1) j)))
          (fun j => g (ix2 (0 : Fin 1) j)) (fun j => be (ix2 (0 : Fin 1) j)) j)
    (X : FVec Ideal S100000x128 .f32) (W : FVec Ideal S128x128 .f32) (B G BE : FVec Ideal S1x128 .f32)
    (x0 : FVec Ideal S2000x128 .f32) (x1 : FVec Ideal S128x128 .f32) (x2 x3 x4 : FVec Ideal S1x128 .f32)
    (T : ℕ) (e0 e5 : S2000x128.Idx → S100000x128.Idx)
    (h00 : ∀ y, (e0 y 0).val = T + (y 0).val) (h01 : ∀ y, (e0 y 1).val = (y 1).val)
    (h50 : ∀ y, (e5 y 0).val = T + (y 0).val) (h51 : ∀ y, (e5 y 1).val = (y 1).val)
    (hx0 : ∀ y, x0 y = X (e0 y)) (hx1 : x1 = W) (hx2 : x2 = B) (hx3 : x3 = G) (hx4 : x4 = BE)
    (y : S2000x128.Idx) :
    pay x0 x1 x2 x3 x4 y
      = hidden X W (fun j => B (ix2 (0 : Fin 1) j)) (fun j => G (ix2 (0 : Fin 1) j)) (fun j => BE (ix2 (0 : Fin 1) j))
          (e5 y) := by
  obtain ⟨p, q, rfl⟩ : ∃ (p : Fin 2000) (q : Fin 128), y = ix2 p q := ⟨y 0, y 1, eq_ix2 y⟩
  rw [hpay, hx1, hx2, hx3, hx4]
  have hrow := row_of_block X x0 T e0 h00 h01 hx0 (e5 (ix2 p q) 0) p (h50 (ix2 p q))
  have hcol : q = e5 (ix2 p q) 1 := Fin.ext (h51 (ix2 p q)).symm
  exact congr (congrArg (fun (r : Fin 128 → EReal) (c : Fin 128) =>
    lnRelu (denseRow r W (fun j => B (ix2 (0 : Fin 1) j))) (fun j => G (ix2 (0 : Fin 1) j))
      (fun j => BE (ix2 (0 : Fin 1) j)) c) hrow) hcol

/-- The last layer's stored value at a block index is the whole-array last layer at the element's place. -/
theorem plain_block (X : FVec Ideal S100000x128 .f32) (W : FVec Ideal S128x64 .f32) (B : FVec Ideal S1x64 .f32)
    (x0 : FVec Ideal S2000x128 .f32) (x1 : FVec Ideal S128x64 .f32) (x2 : FVec Ideal S1x64 .f32)
    (T : ℕ) (e0 : S2000x128.Idx → S100000x128.Idx) (e3 : S2000x64.Idx → S100000x64.Idx)
    (h00 : ∀ y, (e0 y 0).val = T + (y 0).val) (h01 : ∀ y, (e0 y 1).val = (y 1).val)
    (h30 : ∀ y, (e3 y 0).val = T + (y 0).val) (h31 : ∀ y, (e3 y 1).val = (y 1).val)
    (hx0 : ∀ y, x0 y = X (e0 y)) (hx1 : x1 = W) (hx2 : x2 = B) (y : S2000x64.Idx) :
    k2_pay1 (F := Ideal) x0 x1 x2 y = plain X W (fun j => B (ix2 (0 : Fin 1) j)) (e3 y) := by
  obtain ⟨p, q, rfl⟩ : ∃ (p : Fin 2000) (q : Fin 64), y = ix2 p q := ⟨y 0, y 1, eq_ix2 y⟩
  rw [pay2_apply, hx1, hx2]
  have hrow := row_of_block X x0 T e0 h00 h01 hx0 (e3 (ix2 p q) 0) p (h30 (ix2 p q))
  have hcol : q = e3 (ix2 p q) 1 := Fin.ext (h31 (ix2 p q)).symm
  exact congr (congrArg (fun (r : Fin 128 → EReal) (c : Fin 64) =>
    denseRow r W (fun j => B (ix2 (0 : Fin 1) j)) c) hrow) hcol

end Cert.Gcn.Kernel

end
-- ==== Proof.Region0.lean ====
/-
  Region 0 (a hidden layer): after the region its output array is the whole-array hidden layer of its input array.

  A grid point t of the region stages rows 2000·t … 2000·t + 1999 of the input array, the whole weight matrix and the
  whole bias / scale / shift rows, runs the body, and writes the 2000 result rows back to the same rows of the output
  array. Since the dense part treats every row alone, what point t writes back is block t of ONE function of the whole
  input array; the fifty blocks tile the 100000 rows, so after the region the output array IS that function.
  (Where a block's element sits: block index × block size + the coordinate inside the block, on each axis.)
-/
import proofs.«182177_j74929999446102_1_alg».proof.Proof.Gen.KernelIdeal.Frame
import proofs.«182177_j74929999446102_1_alg».proof.Proof.BlockRead
import proofs.«182177_j74929999446102_1_alg».proof.Proof.Layers
import Idealize.ShloMosaic.Lib.Pipeline.Value

set_option maxRecDepth 16384

noncomputable section

namespace Cert.Gcn.Kernel

open Idealize.ShloMosaic Idealize.ShloMosaic.TcCoe Idealize.ShloMosaic.ValueIdx Idealize.SL.Sem
open Cert.KernelIdeal Cert.KernelIdeal.Gen Cert.Gcn
open Idealize.ShloMosaic.Pipeline (Dat)
open Idealize.ShloMosaic.Pipeline (Dat)

variable (V : (c : Dev nD) → (b : Ref sig .tc) → Buf (Elt Ideal) ((c : Thread nD τ).loc b))

/-- The printed index maps over the fifty points: the row block of the input moves with the output's, every other
    coordinate of every window is block 0, and the output's row block stays below fifty. -/
theorem idx_facts0 : ∀ t : Fin cfg0.N, win0_0.index t (0 : Fin 2) = win0_5.index t (0 : Fin 2)
    ∧ win0_0.index t (1 : Fin 2) = 0 ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 49 :=
  (by decide +kernel : ∀ t : Fin grid0.N, _)

/-- Every row block is some point's. -/
theorem idx_onto0 : ∀ q0 : Fin 50, ∃ t : Fin cfg0.N, win0_5.index t = ![q0.val, 0] :=
  (by decide +kernel : ∀ q0 : Fin 50, ∃ t : Fin grid0.N, win0_5.index t = ![q0.val, 0])

/-- What point t writes back is block t of the hidden layer of the input array as the region finds it. -/
theorem flushed0 (c : Dev nD) (t : Fin cfg0.N) :
    (dat0 V c).flushed 5 t = ((cfg0.win 5).blk t).view.read (Elt Ideal)
      (hidden (V c main_v28) (V c main_arg3) (fun j => V c main_v29 (ix2 (0 : Fin 1) j))
        (fun j => V c main_v30 (ix2 (0 : Fin 1) j)) (fun j => V c main_v31 (ix2 (0 : Fin 1) j))) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz,
    View.ld_unit_zero (S := S1x128) hz]
  obtain ⟨e00, e01, e51, e10, e11, e20, e21, e30, e31, e40, e41, e5⟩ := idx_facts0 t
  funext y
  refine hidden_block (k0_pay1 (F := Ideal)) pay0_apply (V c main_v28) (V c main_arg3) (V c main_v29) (V c main_v30) (V c main_v31)
    (iblk0 V c 0 t) (iblk0 V c 1 t) (iblk0 V c 2 t) (iblk0 V c 3 t) (iblk0 V c 4 t)
    (win0_5.index t (0 : Fin 2) * 2000) ((cfg0.win 0).blk t).view.emb ((cfg0.win 5).blk t).view.emb
    ?_ ?_ ?_ ?_ (fun _ => rfl) ?_ ?_ ?_ ?_ y
  · intro z
    show win0_0.index t (0 : Fin 2) * 2000 + 1 * (z 0).val = win0_5.index t (0 : Fin 2) * 2000 + (z 0).val
    omega
  · intro z
    show win0_0.index t (1 : Fin 2) * 128 + 1 * (z 1).val = (z 1).val
    omega
  · intro z
    show win0_5.index t (0 : Fin 2) * 2000 + 1 * (z 0).val = win0_5.index t (0 : Fin 2) * 2000 + (z 0).val
    omega
  · intro z
    show win0_5.index t (1 : Fin 2) * 128 + 1 * (z 1).val = (z 1).val
    omega
  · refine whole_read (S := S128x128) (α := EReal) (V c main_arg3) (iblk0 V c 1 t) ((cfg0.win 1).blk t).view.emb (fun z a => ?_) (fun _ => rfl)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · refine whole_read (S := S1x128) (α := EReal) (V c main_v29) (iblk0 V c 2 t) ((cfg0.win 2).blk t).view.emb (fun z a => ?_) (fun _ => rfl)
    match a with
    | ⟨0, _⟩ => show win0_2.index t (0 : Fin 2) * 1 + 1 * (z 0).val = (z 0).val; omega
    | ⟨1, _⟩ => show win0_2.index t (1 : Fin 2) * 128 + 1 * (z 1).val = (z 1).val; omega
  · refine whole_read (S := S1x128) (α := EReal) (V c main_v30) (iblk0 V c 3 t) ((cfg0.win 3).blk t).view.emb (fun z a => ?_) (fun _ => rfl)
    match a with
    | ⟨0, _⟩ => show win0_3.index t (0 : Fin 2) * 1 + 1 * (z 0).val = (z 0).val; omega
    | ⟨1, _⟩ => show win0_3.index t (1 : Fin 2) * 128 + 1 * (z 1).val = (z 1).val; omega
  · refine whole_read (S := S1x128) (α := EReal) (V c main_v31) (iblk0 V c 4 t) ((cfg0.win 4).blk t).view.emb (fun z a => ?_) (fun _ => rfl)
    match a with
    | ⟨0, _⟩ => show win0_4.index t (0 : Fin 2) * 1 + 1 * (z 0).val = (z 0).val; omega
    | ⟨1, _⟩ => show win0_4.index t (1 : Fin 2) * 128 + 1 * (z 1).val = (z 1).val; omega

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v32).slice (win0_5.rect t)).set ↔ _
  rw [View.set_slice_whole, Rect.mem_set_unit]
  exact Iff.rfl

/-- The fifty blocks cover the output array: row r lies in block r / 2000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk0]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- After the region its output array is the hidden layer of the input array as the region finds it. -/
theorem final0 (c : Dev nD) :
    (dat0 V c).arrAt 5 cfg0.N
      = hidden (V c main_v28) (V c main_arg3) (fun j => V c main_v29 (ix2 (0 : Fin 1) j))
          (fun j => V c main_v30 (ix2 (0 : Fin 1) j)) (fun j => V c main_v31 (ix2 (0 : Fin 1) j)) :=
  (dat0 V c).arrAt_eq_of_cover 5 _ (fun t _ => flushed0 V c t) cover0

end Cert.Gcn.Kernel

end
-- ==== Proof.Region1.lean ====
/-
  Region 1 (a hidden layer): after the region its output array is the whole-array hidden layer of its input array.

  A grid point t of the region stages rows 2000·t … 2000·t + 1999 of the input array, the whole weight matrix and the
  whole bias / scale / shift rows, runs the body, and writes the 2000 result rows back to the same rows of the output
  array. Since the dense part treats every row alone, what point t writes back is block t of ONE function of the whole
  input array; the fifty blocks tile the 100000 rows, so after the region the output array IS that function.
  (Where a block's element sits: block index × block size + the coordinate inside the block, on each axis.)
-/
import proofs.«182177_j74929999446102_1_alg».proof.Proof.Gen.KernelIdeal.Frame
import proofs.«182177_j74929999446102_1_alg».proof.Proof.BlockRead
import proofs.«182177_j74929999446102_1_alg».proof.Proof.Layers
import Idealize.ShloMosaic.Lib.Pipeline.Value

set_option maxRecDepth 16384

noncomputable section

namespace Cert.Gcn.Kernel

open Idealize.ShloMosaic Idealize.ShloMosaic.TcCoe Idealize.ShloMosaic.ValueIdx Idealize.SL.Sem
open Cert.KernelIdeal Cert.KernelIdeal.Gen Cert.Gcn
open Idealize.ShloMosaic.Pipeline (Dat)
open Idealize.ShloMosaic.Pipeline (Dat)

variable (V : (c : Dev nD) → (b : Ref sig .tc) → Buf (Elt Ideal) ((c : Thread nD τ).loc b))

/-- The printed index maps over the fifty points: the row block of the input moves with the output's, every other
    coordinate of every window is block 0, and the output's row block stays below fifty. -/
theorem idx_facts1 : ∀ t : Fin cfg1.N, win1_0.index t (0 : Fin 2) = win1_5.index t (0 : Fin 2)
    ∧ win1_0.index t (1 : Fin 2) = 0 ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 49 :=
  (by decide +kernel : ∀ t : Fin grid1.N, _)

/-- Every row block is some point's. -/
theorem idx_onto1 : ∀ q0 : Fin 50, ∃ t : Fin cfg1.N, win1_5.index t = ![q0.val, 0] :=
  (by decide +kernel : ∀ q0 : Fin 50, ∃ t : Fin grid1.N, win1_5.index t = ![q0.val, 0])

/-- What point t writes back is block t of the hidden layer of the input array as the region finds it. -/
theorem flushed1 (c : Dev nD) (t : Fin cfg1.N) :
    (dat1 V c).flushed 5 t = ((cfg1.win 5).blk t).view.read (Elt Ideal)
      (hidden (V c main_v48) (V c main_arg7) (fun j => V c main_v49 (ix2 (0 : Fin 1) j))
        (fun j => V c main_v50 (ix2 (0 : Fin 1) j)) (fun j => V c main_v51 (ix2 (0 : Fin 1) j))) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz,
    View.ld_unit_zero (S := S1x128) hz]
  obtain ⟨e00, e01, e51, e10, e11, e20, e21, e30, e31, e40, e41, e5⟩ := idx_facts1 t
  funext y
  refine hidden_block (k1_pay1 (F := Ideal)) pay1_apply (V c main_v48) (V c main_arg7) (V c main_v49) (V c main_v50) (V c main_v51)
    (iblk1 V c 0 t) (iblk1 V c 1 t) (iblk1 V c 2 t) (iblk1 V c 3 t) (iblk1 V c 4 t)
    (win1_5.index t (0 : Fin 2) * 2000) ((cfg1.win 0).blk t).view.emb ((cfg1.win 5).blk t).view.emb
    ?_ ?_ ?_ ?_ (fun _ => rfl) ?_ ?_ ?_ ?_ y
  · intro z
    show win1_0.index t (0 : Fin 2) * 2000 + 1 * (z 0).val = win1_5.index t (0 : Fin 2) * 2000 + (z 0).val
    omega
  · intro z
    show win1_0.index t (1 : Fin 2) * 128 + 1 * (z 1).val = (z 1).val
    omega
  · intro z
    show win1_5.index t (0 : Fin 2) * 2000 + 1 * (z 0).val = win1_5.index t (0 : Fin 2) * 2000 + (z 0).val
    omega
  · intro z
    show win1_5.index t (1 : Fin 2) * 128 + 1 * (z 1).val = (z 1).val
    omega
  · refine whole_read (S := S128x128) (α := EReal) (V c main_arg7) (iblk1 V c 1 t) ((cfg1.win 1).blk t).view.emb (fun z a => ?_) (fun _ => rfl)
    match a with
    | ⟨0, _⟩ => show win1_1.index t (0 : Fin 2) * 128 + 1 * (z 0).val = (z 0).val; omega
    | ⟨1, _⟩ => show win1_1.index t (1 : Fin 2) * 128 + 1 * (z 1).val = (z 1).val; omega
  · refine whole_read (S := S1x128) (α := EReal) (V c main_v49) (iblk1 V c 2 t) ((cfg1.win 2).blk t).view.emb (fun z a => ?_) (fun _ => rfl)
    match a with
    | ⟨0, _⟩ => show win1_2.index t (0 : Fin 2) * 1 + 1 * (z 0).val = (z 0).val; omega
    | ⟨1, _⟩ => show win1_2.index t (1 : Fin 2) * 128 + 1 * (z 1).val = (z 1).val; omega
  · refine whole_read (S := S1x128) (α := EReal) (V c main_v50) (iblk1 V c 3 t) ((cfg1.win 3).blk t).view.emb (fun z a => ?_) (fun _ => rfl)
    match a with
    | ⟨0, _⟩ => show win1_3.index t (0 : Fin 2) * 1 + 1 * (z 0).val = (z 0).val; omega
    | ⟨1, _⟩ => show win1_3.index t (1 : Fin 2) * 128 + 1 * (z 1).val = (z 1).val; omega
  · refine whole_read (S := S1x128) (α := EReal) (V c main_v51) (iblk1 V c 4 t) ((cfg1.win 4).blk t).view.emb (fun z a => ?_) (fun _ => rfl)
    match a with
    | ⟨0, _⟩ => show win1_4.index t (0 : Fin 2) * 1 + 1 * (z 0).val = (z 0).val; omega
    | ⟨1, _⟩ => show win1_4.index t (1 : Fin 2) * 128 + 1 * (z 1).val = (z 1).val; omega

/-- An index of the output array is in point t's block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v52).slice (win1_5.rect t)).set ↔ _
  rw [View.set_slice_whole, Rect.mem_set_unit]
  exact Iff.rfl

/-- The fifty blocks cover the output array: row r lies in block r / 2000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk1]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- After the region its output array is the hidden layer of the input array as the region finds it. -/
theorem final1 (c : Dev nD) :
    (dat1 V c).arrAt 5 cfg1.N
      = hidden (V c main_v48) (V c main_arg7) (fun j => V c main_v49 (ix2 (0 : Fin 1) j))
          (fun j => V c main_v50 (ix2 (0 : Fin 1) j)) (fun j => V c main_v51 (ix2 (0 : Fin 1) j)) :=
  (dat1 V c).arrAt_eq_of_cover 5 _ (fun t _ => flushed1 V c t) cover1

end Cert.Gcn.Kernel

end
-- ==== Proof.Region2.lean ====
/-
  Region 2 (the last layer): after the region its output array is the whole-array last layer of its input array.

  A grid point t of the region stages rows 2000·t … 2000·t + 1999 of the input array, the whole weight matrix and the
  whole bias / scale / shift rows, runs the body, and writes the 2000 result rows back to the same rows of the output
  array. Since the dense part treats every row alone, what point t writes back is block t of ONE function of the whole
  input array; the fifty blocks tile the 100000 rows, so after the region the output array IS that function.
  (Where a block's element sits: block index × block size + the coordinate inside the block, on each axis.)
-/
import proofs.«182177_j74929999446102_1_alg».proof.Proof.Gen.KernelIdeal.Frame
import proofs.«182177_j74929999446102_1_alg».proof.Proof.BlockRead
import proofs.«182177_j74929999446102_1_alg».proof.Proof.Layers
import Idealize.ShloMosaic.Lib.Pipeline.Value

set_option maxRecDepth 16384

noncomputable section

namespace Cert.Gcn.Kernel

open Idealize.ShloMosaic Idealize.ShloMosaic.TcCoe Idealize.ShloMosaic.ValueIdx Idealize.SL.Sem
open Cert.KernelIdeal Cert.KernelIdeal.Gen Cert.Gcn
open Idealize.ShloMosaic.Pipeline (Dat)

variable (V : (c : Dev nD) → (b : Ref sig .tc) → Buf (Elt Ideal) ((c : Thread nD τ).loc b))

/-- The printed index maps over the fifty points: the row block of the input moves with the output's, every other
    coordinate of every window is block 0, and the output's row block stays below fifty. -/
theorem idx_facts2 : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 49 :=
  (by decide +kernel : ∀ t : Fin grid2.N, _)

/-- Every row block is some point's. -/
theorem idx_onto2 : ∀ q0 : Fin 50, ∃ t : Fin cfg2.N, win2_3.index t = ![q0.val, 0] :=
  (by decide +kernel : ∀ q0 : Fin 50, ∃ t : Fin grid2.N, win2_3.index t = ![q0.val, 0])

/-- What point t writes back is block t of the last layer of the input array as the region finds it. -/
theorem flushed2 (c : Dev nD) (t : Fin cfg2.N) :
    (dat2 V c).flushed 3 t = ((cfg2.win 3).blk t).view.read (Elt Ideal)
      (plain (V c main_v68) (V c main_arg11) (fun j => V c main_v69 (ix2 (0 : Fin 1) j))) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x64) hz,
    View.ld_unit_zero (S := S1x64) hz]
  obtain ⟨e00, e01, e31, e10, e11, e20, e21, e3⟩ := idx_facts2 t
  funext y
  refine plain_block (V c main_v68) (V c main_arg11) (V c main_v69)
    (iblk2 V c 0 t) (iblk2 V c 1 t) (iblk2 V c 2 t)
    (win2_3.index t (0 : Fin 2) * 2000) ((cfg2.win 0).blk t).view.emb ((cfg2.win 3).blk t).view.emb
    ?_ ?_ ?_ ?_ (fun _ => rfl) ?_ ?_ y
  · intro z
    show win2_0.index t (0 : Fin 2) * 2000 + 1 * (z 0).val = win2_3.index t (0 : Fin 2) * 2000 + (z 0).val
    omega
  · intro z
    show win2_0.index t (1 : Fin 2) * 128 + 1 * (z 1).val = (z 1).val
    omega
  · intro z
    show win2_3.index t (0 : Fin 2) * 2000 + 1 * (z 0).val = win2_3.index t (0 : Fin 2) * 2000 + (z 0).val
    omega
  · intro z
    show win2_3.index t (1 : Fin 2) * 64 + 1 * (z 1).val = (z 1).val
    omega
  · refine whole_read (S := S128x64) (α := EReal) (V c main_arg11) (iblk2 V c 1 t) ((cfg2.win 1).blk t).view.emb (fun z a => ?_) (fun _ => rfl)
    match a with
    | ⟨0, _⟩ => show win2_1.index t (0 : Fin 2) * 128 + 1 * (z 0).val = (z 0).val; omega
    | ⟨1, _⟩ => show win2_1.index t (1 : Fin 2) * 64 + 1 * (z 1).val = (z 1).val; omega
  · refine whole_read (S := S1x64) (α := EReal) (V c main_v69) (iblk2 V c 2 t) ((cfg2.win 2).blk t).view.emb (fun z a => ?_) (fun _ => rfl)
    match a with
    | ⟨0, _⟩ => show win2_2.index t (0 : Fin 2) * 1 + 1 * (z 0).val = (z 0).val; omega
    | ⟨1, _⟩ => show win2_2.index t (1 : Fin 2) * 64 + 1 * (z 1).val = (z 1).val; omega

/-- An index of the output array is in point t's block iff each coordinate is in the block's range on its axis. -/
theorem mem_blk2 (t : Fin cfg2.N) (i : S100000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v70).slice (win2_3.rect t)).set ↔ _
  rw [View.set_slice_whole, Rect.mem_set_unit]
  exact Iff.rfl

/-- The fifty blocks cover the output array: row r lies in block r / 2000. -/
theorem cover2 (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := idx_onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 64 ≤ (i 1).val ∧ (i 1).val < win2_3.index t (1 : Fin 2) * 64 + 64
    omega

/-- After the region its output array is the last layer of the input array as the region finds it. -/
theorem final2 (c : Dev nD) :
    (dat2 V c).arrAt 3 cfg2.N
      = plain (V c main_v68) (V c main_arg11) (fun j => V c main_v69 (ix2 (0 : Fin 1) j)) :=
  (dat2 V c).arrAt_eq_of_cover 3 _ (fun t _ => flushed2 V c t) cover2

end Cert.Gcn.Kernel

end
-- ==== Proof.KernelValue.lean ====
/-
  The contents of the buffers at the six boundaries of the run, walked back to the launch memory.

  Before region 0 the host has computed the two degree norms and the first aggregation, and reshaped the first layer's
  bias, scale and shift; region 0 leaves the first hidden layer in its output array (Region0.lean) and touches no other
  array; the host then aggregates that array (with the SAME two degree-norm buffers, computed once) and reshapes the
  second layer's rows; region 1 leaves the second hidden layer; the host aggregates again and reshapes the last bias;
  region 2 leaves the last layer. A buffer that a stretch does not write and a region does not own keeps its contents
  across it. Composing these facts, the result buffer at the last boundary is the network function of the arguments.
-/
import proofs.«182177_j74929999446102_1_alg».proof.Proof.Region0
import proofs.«182177_j74929999446102_1_alg».proof.Proof.Region1
import proofs.«182177_j74929999446102_1_alg».proof.Proof.Region2

set_option maxRecDepth 16384

noncomputable section

namespace Cert.Gcn.Kernel

open Idealize.ShloMosaic Idealize.ShloMosaic.TcCoe Idealize.ShloMosaic.ValueIdx Idealize.SL.Sem Idealize.ShloMosaic.StableHlo
open Cert.KernelIdeal Cert.KernelIdeal.Gen Cert.Gcn

variable (m : (ℓ : Loc nD τ sig) → Buf (Elt Ideal) ℓ) (ρ : Dev nD → PrngReg)

/-- A reshaped row [1, n] of a vector [n], read along the row, is the vector. -/
theorem row_vec128 (v : FVec Ideal S128 .f32) (h : S128.ShapeCasts S1x128) :
    (fun j : Fin 128 => shapeCast S1x128 v h (ix2 (0 : Fin 1) j)) = vec v :=
  funext fun j => shapeCast_a_1a_apply v h 0 j

theorem row_vec64 (v : FVec Ideal S64 .f32) (h : S64.ShapeCasts S1x64) :
    (fun j : Fin 64 => shapeCast S1x64 v h (ix2 (0 : Fin 1) j)) = vec v :=
  funext fun j => shapeCast_a_1a_apply v h 0 j

/-! ## Before region 0 -/

theorem s0_v28 (c : Dev nD) : V1 m ρ c main_v28
    = agg (m ((c : Thread nD τ).loc main_arg0)) (m ((c : Thread nD τ).loc main_arg1)) (m ((c : Thread nD τ).loc main_arg2)) (degNorm (m ((c : Thread nD τ).loc main_arg1))) (degNorm (m ((c : Thread nD τ).loc main_arg2))) := by
  show StableHlo.after hostOps0 (W0 m ρ c) (Proc.devRef .tc main_v28) = _
  after_results_simp <;> rfl

theorem s0_arg3 (c : Dev nD) : V1 m ρ c main_arg3 = (m ((c : Thread nD τ).loc main_arg3)) := by
  show StableHlo.after hostOps0 (W0 m ρ c) (Proc.devRef .tc main_arg3) = _
  after_results_simp <;> rfl

theorem s0_v29 (c : Dev nD) : V1 m ρ c main_v29 = shapeCast S1x128 (m ((c : Thread nD τ).loc main_arg4)) shapeCasts_S128_S1x128 := by
  show StableHlo.after hostOps0 (W0 m ρ c) (Proc.devRef .tc main_v29) = _
  after_results_simp <;> rfl

theorem s0_v30 (c : Dev nD) : V1 m ρ c main_v30 = shapeCast S1x128 (m ((c : Thread nD τ).loc main_arg5)) shapeCasts_S128_S1x128 := by
  show StableHlo.after hostOps0 (W0 m ρ c) (Proc.devRef .tc main_v30) = _
  after_results_simp <;> rfl

theorem s0_v31 (c : Dev nD) : V1 m ρ c main_v31 = shapeCast S1x128 (m ((c : Thread nD τ).loc main_arg6)) shapeCasts_S128_S1x128 := by
  show StableHlo.after hostOps0 (W0 m ρ c) (Proc.devRef .tc main_v31) = _
  after_results_simp <;> rfl

theorem s0_v9 (c : Dev nD) : W1 m ρ c (Proc.devRef .tc main_v9) = degNorm (m ((c : Thread nD τ).loc main_arg1)) := by
  show StableHlo.after hostOps0 (W0 m ρ c) (Proc.devRef .tc main_v9) = _
  after_results_simp <;> rfl

theorem s0_v12 (c : Dev nD) : W1 m ρ c (Proc.devRef .tc main_v12) = degNorm (m ((c : Thread nD τ).loc main_arg2)) := by
  show StableHlo.after hostOps0 (W0 m ρ c) (Proc.devRef .tc main_v12) = _
  after_results_simp <;> rfl

theorem s0_arg1 (c : Dev nD) : W1 m ρ c (Proc.devRef .tc main_arg1) = (m ((c : Thread nD τ).loc main_arg1)) := by
  show StableHlo.after hostOps0 (W0 m ρ c) (Proc.devRef .tc main_arg1) = _
  after_results_simp <;> rfl

theorem s0_arg2 (c : Dev nD) : W1 m ρ c (Proc.devRef .tc main_arg2) = (m ((c : Thread nD τ).loc main_arg2)) := by
  show StableHlo.after hostOps0 (W0 m ρ c) (Proc.devRef .tc main_arg2) = _
  after_results_simp <;> rfl

theorem s0_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

theorem s0_arg8 (c : Dev nD) : W1 m ρ c (Proc.devRef .tc main_arg8) = (m ((c : Thread nD τ).loc main_arg8)) := by
  show StableHlo.after hostOps0 (W0 m ρ c) (Proc.devRef .tc main_arg8) = _
  after_results_simp <;> rfl

theorem s0_arg9 (c : Dev nD) : W1 m ρ c (Proc.devRef .tc main_arg9) = (m ((c : Thread nD τ).loc main_arg9)) := by
  show StableHlo.after hostOps0 (W0 m ρ c) (Proc.devRef .tc main_arg9) = _
  after_results_simp <;> rfl

theorem s0_arg10 (c : Dev nD) : W1 m ρ c (Proc.devRef .tc main_arg10) = (m ((c : Thread nD τ).loc main_arg10)) := by
  show StableHlo.after hostOps0 (W0 m ρ c) (Proc.devRef .tc main_arg10) = _
  after_results_simp <;> rfl

theorem s0_arg11 (c : Dev nD) : W1 m ρ c (Proc.devRef .tc main_arg11) = (m ((c : Thread nD τ).loc main_arg11)) := by
  show StableHlo.after hostOps0 (W0 m ρ c) (Proc.devRef .tc main_arg11) = _
  after_results_simp <;> rfl

theorem s0_arg12 (c : Dev nD) : W1 m ρ c (Proc.devRef .tc main_arg12) = (m ((c : Thread nD τ).loc main_arg12)) := by
  show StableHlo.after hostOps0 (W0 m ρ c) (Proc.devRef .tc main_arg12) = _
  after_results_simp <;> rfl

/-! ## Across region 0 -/

theorem r0_v32 (c : Dev nD) : W2 m ρ c (Proc.devRef .tc main_v32)
    = hidden (V1 m ρ c main_v28) (V1 m ρ c main_arg3) (fun j => V1 m ρ c main_v29 (ix2 (0 : Fin 1) j))
        (fun j => V1 m ρ c main_v30 (ix2 (0 : Fin 1) j)) (fun j => V1 m ρ c main_v31 (ix2 (0 : Fin 1) j)) :=
  (W2_arr m ρ c 5).trans (final0 (V1 m ρ) c)

theorem r0_arg1 (c : Dev nD) : W2 m ρ c (Proc.devRef .tc main_arg1) = W1 m ρ c (Proc.devRef .tc main_arg1) :=
  W2_of_ne m ρ c main_arg1 (by decide)

theorem r0_arg2 (c : Dev nD) : W2 m ρ c (Proc.devRef .tc main_arg2) = W1 m ρ c (Proc.devRef .tc main_arg2) :=
  W2_of_ne m ρ c main_arg2 (by decide)

theorem r0_v9 (c : Dev nD) : W2 m ρ c (Proc.devRef .tc main_v9) = W1 m ρ c (Proc.devRef .tc main_v9) :=
  W2_of_ne m ρ c main_v9 (by decide)

theorem r0_v12 (c : Dev nD) : W2 m ρ c (Proc.devRef .tc main_v12) = W1 m ρ c (Proc.devRef .tc main_v12) :=
  W2_of_ne m ρ c main_v12 (by decide)

theorem r0_arg7 (c : Dev nD) : W2 m ρ c (Proc.devRef .tc main_arg7) = W1 m ρ c (Proc.devRef .tc main_arg7) :=
  W2_of_ne m ρ c main_arg7 (by decide)

theorem r0_arg8 (c : Dev nD) : W2 m ρ c (Proc.devRef .tc main_arg8) = W1 m ρ c (Proc.devRef .tc main_arg8) :=
  W2_of_ne m ρ c main_arg8 (by decide)

theorem r0_arg9 (c : Dev nD) : W2 m ρ c (Proc.devRef .tc main_arg9) = W1 m ρ c (Proc.devRef .tc main_arg9) :=
  W2_of_ne m ρ c main_arg9 (by decide)

theorem r0_arg10 (c : Dev nD) : W2 m ρ c (Proc.devRef .tc main_arg10) = W1 m ρ c (Proc.devRef .tc main_arg10) :=
  W2_of_ne m ρ c main_arg10 (by decide)

theorem r0_arg11 (c : Dev nD) : W2 m ρ c (Proc.devRef .tc main_arg11) = W1 m ρ c (Proc.devRef .tc main_arg11) :=
  W2_of_ne m ρ c main_arg11 (by decide)

theorem r0_arg12 (c : Dev nD) : W2 m ρ c (Proc.devRef .tc main_arg12) = W1 m ρ c (Proc.devRef .tc main_arg12) :=
  W2_of_ne m ρ c main_arg12 (by decide)

/-! ## Between regions 0 and 1 -/

theorem s1_v48 (c : Dev nD) : V3 m ρ c main_v48
    = agg (W2 m ρ c (Proc.devRef .tc main_v32)) (W2 m ρ c (Proc.devRef .tc main_arg1)) (W2 m ρ c (Proc.devRef .tc main_arg2))
        (W2 m ρ c (Proc.devRef .tc main_v9)) (W2 m ρ c (Proc.devRef .tc main_v12)) := by
  show StableHlo.after hostOps1 (W2 m ρ c) (Proc.devRef .tc main_v48) = _
  after_results_simp <;> rfl

theorem s1_arg7 (c : Dev nD) : V3 m ρ c main_arg7 = W2 m ρ c (Proc.devRef .tc main_arg7) := by
  show StableHlo.after hostOps1 (W2 m ρ c) (Proc.devRef .tc main_arg7) = _
  after_results_simp <;> rfl

theorem s1_v49 (c : Dev nD) : V3 m ρ c main_v49 = shapeCast S1x128 (W2 m ρ c (Proc.devRef .tc main_arg8)) shapeCasts_S128_S1x128 := by
  show StableHlo.after hostOps1 (W2 m ρ c) (Proc.devRef .tc main_v49) = _
  after_results_simp <;> rfl

theorem s1_v50 (c : Dev nD) : V3 m ρ c main_v50 = shapeCast S1x128 (W2 m ρ c (Proc.devRef .tc main_arg9)) shapeCasts_S128_S1x128 := by
  show StableHlo.after hostOps1 (W2 m ρ c) (Proc.devRef .tc main_v50) = _
  after_results_simp <;> rfl

theorem s1_v51 (c : Dev nD) : V3 m ρ c main_v51 = shapeCast S1x128 (W2 m ρ c (Proc.devRef .tc main_arg10)) shapeCasts_S128_S1x128 := by
  show StableHlo.after hostOps1 (W2 m ρ c) (Proc.devRef .tc main_v51) = _
  after_results_simp <;> rfl

theorem s1_arg1 (c : Dev nD) : W3 m ρ c (Proc.devRef .tc main_arg1) = W2 m ρ c (Proc.devRef .tc main_arg1) := by
  show StableHlo.after hostOps1 (W2 m ρ c) (Proc.devRef .tc main_arg1) = _
  after_results_simp <;> rfl

theorem s1_arg2 (c : Dev nD) : W3 m ρ c (Proc.devRef .tc main_arg2) = W2 m ρ c (Proc.devRef .tc main_arg2) := by
  show StableHlo.after hostOps1 (W2 m ρ c) (Proc.devRef .tc main_arg2) = _
  after_results_simp <;> rfl

theorem s1_v9 (c : Dev nD) : W3 m ρ c (Proc.devRef .tc main_v9) = W2 m ρ c (Proc.devRef .tc main_v9) := by
  show StableHlo.after hostOps1 (W2 m ρ c) (Proc.devRef .tc main_v9) = _
  after_results_simp <;> rfl

theorem s1_v12 (c : Dev nD) : W3 m ρ c (Proc.devRef .tc main_v12) = W2 m ρ c (Proc.devRef .tc main_v12) := by
  show StableHlo.after hostOps1 (W2 m ρ c) (Proc.devRef .tc main_v12) = _
  after_results_simp <;> rfl

theorem s1_arg11 (c : Dev nD) : W3 m ρ c (Proc.devRef .tc main_arg11) = W2 m ρ c (Proc.devRef .tc main_arg11) := by
  show StableHlo.after hostOps1 (W2 m ρ c) (Proc.devRef .tc main_arg11) = _
  after_results_simp <;> rfl

theorem s1_arg12 (c : Dev nD) : W3 m ρ c (Proc.devRef .tc main_arg12) = W2 m ρ c (Proc.devRef .tc main_arg12) := by
  show StableHlo.after hostOps1 (W2 m ρ c) (Proc.devRef .tc main_arg12) = _
  after_results_simp <;> rfl

/-! ## Across region 1 -/

theorem r1_v52 (c : Dev nD) : W4 m ρ c (Proc.devRef .tc main_v52)
    = hidden (V3 m ρ c main_v48) (V3 m ρ c main_arg7) (fun j => V3 m ρ c main_v49 (ix2 (0 : Fin 1) j))
        (fun j => V3 m ρ c main_v50 (ix2 (0 : Fin 1) j)) (fun j => V3 m ρ c main_v51 (ix2 (0 : Fin 1) j)) :=
  (W4_arr m ρ c 5).trans (final1 (V3 m ρ) c)

theorem r1_arg1 (c : Dev nD) : W4 m ρ c (Proc.devRef .tc main_arg1) = W3 m ρ c (Proc.devRef .tc main_arg1) :=
  W4_of_ne m ρ c main_arg1 (by decide)

theorem r1_arg2 (c : Dev nD) : W4 m ρ c (Proc.devRef .tc main_arg2) = W3 m ρ c (Proc.devRef .tc main_arg2) :=
  W4_of_ne m ρ c main_arg2 (by decide)

theorem r1_v9 (c : Dev nD) : W4 m ρ c (Proc.devRef .tc main_v9) = W3 m ρ c (Proc.devRef .tc main_v9) :=
  W4_of_ne m ρ c main_v9 (by decide)

theorem r1_v12 (c : Dev nD) : W4 m ρ c (Proc.devRef .tc main_v12) = W3 m ρ c (Proc.devRef .tc main_v12) :=
  W4_of_ne m ρ c main_v12 (by decide)

theorem r1_arg11 (c : Dev nD) : W4 m ρ c (Proc.devRef .tc main_arg11) = W3 m ρ c (Proc.devRef .tc main_arg11) :=
  W4_of_ne m ρ c main_arg11 (by decide)

theorem r1_arg12 (c : Dev nD) : W4 m ρ c (Proc.devRef .tc main_arg12) = W3 m ρ c (Proc.devRef .tc main_arg12) :=
  W4_of_ne m ρ c main_arg12 (by decide)

/-! ## Between regions 1 and 2 -/

theorem s2_v68 (c : Dev nD) : V5 m ρ c main_v68
    = agg (W4 m ρ c (Proc.devRef .tc main_v52)) (W4 m ρ c (Proc.devRef .tc main_arg1)) (W4 m ρ c (Proc.devRef .tc main_arg2))
        (W4 m ρ c (Proc.devRef .tc main_v9)) (W4 m ρ c (Proc.devRef .tc main_v12)) := by
  show StableHlo.after hostOps2 (W4 m ρ c) (Proc.devRef .tc main_v68) = _
  after_results_simp <;> rfl

theorem s2_arg11 (c : Dev nD) : V5 m ρ c main_arg11 = W4 m ρ c (Proc.devRef .tc main_arg11) := by
  show StableHlo.after hostOps2 (W4 m ρ c) (Proc.devRef .tc main_arg11) = _
  after_results_simp <;> rfl

theorem s2_v69 (c : Dev nD) : V5 m ρ c main_v69 = shapeCast S1x64 (W4 m ρ c (Proc.devRef .tc main_arg12)) shapeCasts_S64_S1x64 := by
  show StableHlo.after hostOps2 (W4 m ρ c) (Proc.devRef .tc main_v69) = _
  after_results_simp <;> rfl

/-! ## Across region 2 -/

theorem r2_v70 (c : Dev nD) : W6 m ρ c (Proc.devRef .tc main_v70)
    = plain (V5 m ρ c main_v68) (V5 m ρ c main_arg11) (fun j => V5 m ρ c main_v69 (ix2 (0 : Fin 1) j)) :=
  (W6_arr m ρ c 3).trans (final2 (V5 m ρ) c)

/-! ## The buffers no segment changes, from the launch -/

theorem at2_arg1 (c : Dev nD) : W2 m ρ c (Proc.devRef .tc main_arg1) = (m ((c : Thread nD τ).loc main_arg1)) := (r0_arg1 m ρ c).trans (s0_arg1 m ρ c)

theorem at2_arg2 (c : Dev nD) : W2 m ρ c (Proc.devRef .tc main_arg2) = (m ((c : Thread nD τ).loc main_arg2)) := (r0_arg2 m ρ c).trans (s0_arg2 m ρ c)

theorem at2_v9 (c : Dev nD) : W2 m ρ c (Proc.devRef .tc main_v9) = degNorm (m ((c : Thread nD τ).loc main_arg1)) := (r0_v9 m ρ c).trans (s0_v9 m ρ c)

theorem at2_v12 (c : Dev nD) : W2 m ρ c (Proc.devRef .tc main_v12) = degNorm (m ((c : Thread nD τ).loc main_arg2)) := (r0_v12 m ρ c).trans (s0_v12 m ρ c)

theorem at2_arg7 (c : Dev nD) : W2 m ρ c (Proc.devRef .tc main_arg7) = (m ((c : Thread nD τ).loc main_arg7)) := (r0_arg7 m ρ c).trans (s0_arg7 m ρ c)

theorem at2_arg8 (c : Dev nD) : W2 m ρ c (Proc.devRef .tc main_arg8) = (m ((c : Thread nD τ).loc main_arg8)) := (r0_arg8 m ρ c).trans (s0_arg8 m ρ c)

theorem at2_arg9 (c : Dev nD) : W2 m ρ c (Proc.devRef .tc main_arg9) = (m ((c : Thread nD τ).loc main_arg9)) := (r0_arg9 m ρ c).trans (s0_arg9 m ρ c)

theorem at2_arg10 (c : Dev nD) : W2 m ρ c (Proc.devRef .tc main_arg10) = (m ((c : Thread nD τ).loc main_arg10)) := (r0_arg10 m ρ c).trans (s0_arg10 m ρ c)

theorem at2_arg11 (c : Dev nD) : W2 m ρ c (Proc.devRef .tc main_arg11) = (m ((c : Thread nD τ).loc main_arg11)) := (r0_arg11 m ρ c).trans (s0_arg11 m ρ c)

theorem at2_arg12 (c : Dev nD) : W2 m ρ c (Proc.devRef .tc main_arg12) = (m ((c : Thread nD τ).loc main_arg12)) := (r0_arg12 m ρ c).trans (s0_arg12 m ρ c)

theorem at4_arg1 (c : Dev nD) : W4 m ρ c (Proc.devRef .tc main_arg1) = (m ((c : Thread nD τ).loc main_arg1)) :=
  (r1_arg1 m ρ c).trans ((s1_arg1 m ρ c).trans (at2_arg1 m ρ c))

theorem at4_arg2 (c : Dev nD) : W4 m ρ c (Proc.devRef .tc main_arg2) = (m ((c : Thread nD τ).loc main_arg2)) :=
  (r1_arg2 m ρ c).trans ((s1_arg2 m ρ c).trans (at2_arg2 m ρ c))

theorem at4_v9 (c : Dev nD) : W4 m ρ c (Proc.devRef .tc main_v9) = degNorm (m ((c : Thread nD τ).loc main_arg1)) :=
  (r1_v9 m ρ c).trans ((s1_v9 m ρ c).trans (at2_v9 m ρ c))

theorem at4_v12 (c : Dev nD) : W4 m ρ c (Proc.devRef .tc main_v12) = degNorm (m ((c : Thread nD τ).loc main_arg2)) :=
  (r1_v12 m ρ c).trans ((s1_v12 m ρ c).trans (at2_v12 m ρ c))

theorem at4_arg11 (c : Dev nD) : W4 m ρ c (Proc.devRef .tc main_arg11) = (m ((c : Thread nD τ).loc main_arg11)) :=
  (r1_arg11 m ρ c).trans ((s1_arg11 m ρ c).trans (at2_arg11 m ρ c))

theorem at4_arg12 (c : Dev nD) : W4 m ρ c (Proc.devRef .tc main_arg12) = (m ((c : Thread nD τ).loc main_arg12)) :=
  (r1_arg12 m ρ c).trans ((s1_arg12 m ρ c).trans (at2_arg12 m ρ c))

/-! ## The result -/

/-- The result buffer at the last boundary is the network function of the launch contents of the arguments. -/
theorem value (c : Dev nD) : W6 m ρ c (Proc.devRef .tc main_v70)
    = gcn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [r2_v70, s2_v68, s2_arg11, s2_v69, row_vec64, r1_v52, s1_v48, s1_arg7, s1_v49, s1_v50, s1_v51,
    row_vec128, row_vec128, row_vec128, r0_v32, s0_v28, s0_arg3, s0_v29, s0_v30, s0_v31,
    row_vec128, row_vec128, row_vec128,
    at4_arg1, at4_arg2, at4_v9, at4_v12, at4_arg11, at4_arg12,
    at2_arg1, at2_arg2, at2_v9, at2_v12, at2_arg7, at2_arg8, at2_arg9, at2_arg10]
  rfl

end Cert.Gcn.Kernel

end
-- ==== Proof.RefHidden0.lean ====
/-
  Hidden layer 0 of the reference, read at an index.

  The stage chain — a host dot_general, the bias row spread down the rows, two row sums each divided by 128, the
  centred block (computed twice), the reciprocal square root of variance plus ε, scale, shift, clip at zero — is read one
  operation at a time at (r, j): a matrix product as the sum over the 128 contracted entries, a row sum as the initial
  zero plus the sum of the row, a spread as the entry it repeats. Entry for entry it is the row function of Rows.lean
  applied to row r of the stage's aggregated input, which stays opaque.
-/
import proofs.«182177_j74929999446102_1_alg».proof.Proof.Gen.ReferenceIdeal.Read
import proofs.«182177_j74929999446102_1_alg».proof.Proof.Layers

noncomputable section

namespace Cert.Gcn.Ref

open Idealize.ShloMosaic Idealize.ShloMosaic.ValueIdx Cert.ReferenceIdeal Cert.ReferenceIdeal.Read Cert.Gcn

namespace Hidden0

/-! ### Where each layout operation reads its operand -/

theorem lidx_eq (r : Fin 100000) (j k : Fin 128) : lidx_main_v29 (ix2 r j) k = ix2 r k :=
  funext fun a => Fin.ext (by match a with | ⟨0, _⟩ => rfl | ⟨1, _⟩ => rfl)
theorem ridx_eq (r : Fin 100000) (j k : Fin 128) : ridx_main_v29 (ix2 r j) k = ix2 k j :=
  funext fun a => Fin.ext (by match a with | ⟨0, _⟩ => rfl | ⟨1, _⟩ => rfl)
theorem b1_eq (u : Fin 1) (j : Fin 128) : idx_main_v30 (ix2 u j) = ix1 j :=
  funext fun a => Fin.ext (by match a with | ⟨0, _⟩ => rfl)
theorem b2_eq (r : Fin 100000) (j : Fin 128) : idx_main_v31 (ix2 r j) = ix2 (0 : Fin 1) j :=
  funext fun a => Fin.ext (by match a with | ⟨0, _⟩ => rfl | ⟨1, _⟩ => rfl)
theorem s1_eq (r : Fin 100000) (k : Fin 128) : idx_main_v33 (ix1 r) k = ix2 r k :=
  funext fun a => Fin.ext (by match a with | ⟨0, _⟩ => rfl | ⟨1, _⟩ => rfl)
theorem c1_eq (r : Fin 100000) (u : Fin 1) : idx_main_v34 (ix2 r u) = ix1 r :=
  funext fun a => Fin.ext (by match a with | ⟨0, _⟩ => rfl)
theorem m1_eq (r : Fin 100000) (j : Fin 128) : idx_main_v37 (ix2 r j) = ix2 r (0 : Fin 1) :=
  funext fun a => Fin.ext (by match a with | ⟨0, _⟩ => rfl | ⟨1, _⟩ => rfl)
theorem s2_eq (r : Fin 100000) (k : Fin 128) : idx_main_v40 (ix1 r) k = ix2 r k :=
  funext fun a => Fin.ext (by match a with | ⟨0, _⟩ => rfl | ⟨1, _⟩ => rfl)
theorem c2_eq (r : Fin 100000) (u : Fin 1) : idx_main_v41 (ix2 r u) = ix1 r :=
  funext fun a => Fin.ext (by match a with | ⟨0, _⟩ => rfl)
theorem m2_eq (r : Fin 100000) (j : Fin 128) : idx_main_v44 (ix2 r j) = ix2 r (0 : Fin 1) :=
  funext fun a => Fin.ext (by match a with | ⟨0, _⟩ => rfl | ⟨1, _⟩ => rfl)
theorem m3_eq (r : Fin 100000) (j : Fin 128) : idx_main_v49 (ix2 r j) = ix2 r (0 : Fin 1) :=
  funext fun a => Fin.ext (by match a with | ⟨0, _⟩ => rfl | ⟨1, _⟩ => rfl)
theorem g1_eq (u : Fin 1) (j : Fin 128) : idx_main_v51 (ix2 u j) = ix1 j :=
  funext fun a => Fin.ext (by match a with | ⟨0, _⟩ => rfl)
theorem g2_eq (r : Fin 100000) (j : Fin 128) : idx_main_v52 (ix2 r j) = ix2 (0 : Fin 1) j :=
  funext fun a => Fin.ext (by match a with | ⟨0, _⟩ => rfl | ⟨1, _⟩ => rfl)
theorem e1_eq (u : Fin 1) (j : Fin 128) : idx_main_v54 (ix2 u j) = ix1 j :=
  funext fun a => Fin.ext (by match a with | ⟨0, _⟩ => rfl)
theorem e2_eq (r : Fin 100000) (j : Fin 128) : idx_main_v55 (ix2 r j) = ix2 (0 : Fin 1) j :=
  funext fun a => Fin.ext (by match a with | ⟨0, _⟩ => rfl | ⟨1, _⟩ => rfl)

section
variable (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal))

/-- The product plus bias at (r, j): the dense row function of row r of the aggregated input. -/
theorem y_at (r : Fin 100000) (j : Fin 128) :
    val_main_v32 (F := Ideal) x0 x1 x2 x3 x4 (ix2 r j) = (denseRow (fun k => (val_main_v28 (F := Ideal) x0 x1 x2) (ix2 r k)) x3 (vec x4)) j := by
  rw [val_main_v32_apply, val_main_v29_apply, val_main_v31_apply, val_main_v30_apply, b2_eq, b1_eq]
  refine congrArg (· + x4 (ix1 j)) (Finset.sum_congr rfl fun k _ => ?_)
  rw [lidx_eq, ridx_eq]

/-- The first row sum at row r. -/
theorem sum_at (r : Fin 100000) :
    val_main_v33 (F := Ideal) x0 x1 x2 x3 x4 (ix1 r) = ∑ k : Fin 128, val_main_v32 (F := Ideal) x0 x1 x2 x3 x4 (ix2 r k) := by
  rw [val_main_v33_apply, val_main_cst_6_apply]
  show Ideal.ofBits .f32 0x00000000#32 + _ = _
  rw [Ideal.ofBits_zero_f32, zero_add]
  exact Finset.sum_congr rfl fun k _ => by rw [s1_eq]

/-- The row mean at row r. -/
theorem mean_at (r : Fin 100000) (u : Fin 1) :
    val_main_v36 (F := Ideal) x0 x1 x2 x3 x4 (ix2 r u) = rowMean (fun k => val_main_v32 (F := Ideal) x0 x1 x2 x3 x4 (ix2 r k)) := by
  rw [val_main_v36_apply, val_main_v34_apply, val_main_v35_apply, val_main_cst_7_apply, c1_eq, sum_at]
  rfl

/-- The centred entry at (r, j), as the variance takes it. -/
theorem cen_at (r : Fin 100000) (j : Fin 128) :
    val_main_v38 (F := Ideal) x0 x1 x2 x3 x4 (ix2 r j) = val_main_v32 (F := Ideal) x0 x1 x2 x3 x4 (ix2 r j) - rowMean (fun k => val_main_v32 (F := Ideal) x0 x1 x2 x3 x4 (ix2 r k)) := by
  rw [val_main_v38_apply, val_main_v37_apply, m1_eq, mean_at]
  rfl

/-- The centred entry at (r, j), as the normalisation takes it (the same value, computed again). -/
theorem cen2_at (r : Fin 100000) (j : Fin 128) :
    val_main_v45 (F := Ideal) x0 x1 x2 x3 x4 (ix2 r j) = val_main_v32 (F := Ideal) x0 x1 x2 x3 x4 (ix2 r j) - rowMean (fun k => val_main_v32 (F := Ideal) x0 x1 x2 x3 x4 (ix2 r k)) := by
  rw [val_main_v45_apply, val_main_v44_apply, m2_eq, mean_at]
  rfl

/-- The second row sum (of the squares) at row r. -/
theorem sqsum_at (r : Fin 100000) :
    val_main_v40 (F := Ideal) x0 x1 x2 x3 x4 (ix1 r) = ∑ k : Fin 128, val_main_v39 (F := Ideal) x0 x1 x2 x3 x4 (ix2 r k) := by
  rw [val_main_v40_apply, val_main_cst_8_apply]
  show Ideal.ofBits .f32 0x00000000#32 + _ = _
  rw [Ideal.ofBits_zero_f32, zero_add]
  exact Finset.sum_congr rfl fun k _ => by rw [s2_eq]

/-- The row variance at row r. -/
theorem var_at (r : Fin 100000) (u : Fin 1) :
    val_main_v43 (F := Ideal) x0 x1 x2 x3 x4 (ix2 r u) = rowMean (fun k => val_main_v39 (F := Ideal) x0 x1 x2 x3 x4 (ix2 r k)) := by
  rw [val_main_v43_apply, val_main_v41_apply, val_main_v42_apply, val_main_cst_9_apply, c2_eq, sqsum_at]
  rfl

/-- The normalising factor at (r, j). -/
theorem rs_at (r : Fin 100000) (j : Fin 128) :
    val_main_v49 (F := Ideal) x0 x1 x2 x3 x4 (ix2 r j)
      = Ideal.rsqrt (rowMean (fun k => val_main_v39 (F := Ideal) x0 x1 x2 x3 x4 (ix2 r k)) + Ideal.ofBits .f32 0x3727C5AC#32) := by
  rw [val_main_v49_apply, m3_eq, val_main_v48_apply, val_main_v47_apply, var_at, val_main_v46_apply, val_main_cst_10_apply]
  rfl

/-- The scale row spread down the rows, at (r, j). -/
theorem g_at (r : Fin 100000) (j : Fin 128) : val_main_v52 (F := Ideal) x5 (ix2 r j) = x5 (ix1 j) := by
  rw [val_main_v52_apply, val_main_v51_apply, g2_eq, g1_eq]

/-- The shift row spread down the rows, at (r, j). -/
theorem e_at (r : Fin 100000) (j : Fin 128) : val_main_v55 (F := Ideal) x6 (ix2 r j) = x6 (ix1 j) := by
  rw [val_main_v55_apply, val_main_v54_apply, e2_eq, e1_eq]

/-- The hidden layer, read at (r, j): the row function of row r of the aggregated input. -/
theorem hidden_at (r : Fin 100000) (j : Fin 128) :
    val_main_v57 (F := Ideal) x0 x1 x2 x3 x4 x5 x6 (ix2 r j)
      = hiddenAt (val_main_v28 (F := Ideal) x0 x1 x2) x3 (vec x4) (vec x5) (vec x6) r j := by
  have hy : ∀ k : Fin 128, val_main_v32 (F := Ideal) x0 x1 x2 x3 x4 (ix2 r k) = (denseRow (fun k => (val_main_v28 (F := Ideal) x0 x1 x2) (ix2 r k)) x3 (vec x4)) k := fun k => y_at x0 x1 x2 x3 x4 r k
  have hmean : rowMean (fun k => val_main_v32 (F := Ideal) x0 x1 x2 x3 x4 (ix2 r k)) = rowMean (denseRow (fun k => (val_main_v28 (F := Ideal) x0 x1 x2) (ix2 r k)) x3 (vec x4)) := congrArg rowMean (funext hy)
  have hsq : (fun k : Fin 128 => val_main_v39 (F := Ideal) x0 x1 x2 x3 x4 (ix2 r k))
      = fun k => ((denseRow (fun k => (val_main_v28 (F := Ideal) x0 x1 x2) (ix2 r k)) x3 (vec x4)) k - rowMean (denseRow (fun k => (val_main_v28 (F := Ideal) x0 x1 x2) (ix2 r k)) x3 (vec x4))) * ((denseRow (fun k => (val_main_v28 (F := Ideal) x0 x1 x2) (ix2 r k)) x3 (vec x4)) k - rowMean (denseRow (fun k => (val_main_v28 (F := Ideal) x0 x1 x2) (ix2 r k)) x3 (vec x4))) :=
    funext fun k => by rw [val_main_v39_apply, cen_at, hy, hmean]; rfl
  rw [val_main_v57_apply, val_main_call0_v0_apply, val_main_call0_cst_apply, val_main_v56_apply, val_main_v53_apply, val_main_v50_apply,
    cen2_at, rs_at, g_at, e_at, hsq, hy, hmean]
  rfl

end

/-- The hidden layer is the whole-array hidden layer of its aggregated input. -/
theorem hidden_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal)) :
    val_main_v57 (F := Ideal) x0 x1 x2 x3 x4 x5 x6
      = hidden (val_main_v28 (F := Ideal) x0 x1 x2) x3 (vec x4) (vec x5) (vec x6) := by
  funext i
  obtain ⟨r, j, rfl⟩ : ∃ (r : Fin 100000) (j : Fin 128), i = ix2 r j := ⟨i 0, i 1, eq_ix2 i⟩
  exact hidden_at x0 x1 x2 x3 x4 x5 x6 r j

end Hidden0

end Cert.Gcn.Ref

end
-- ==== Proof.RefHidden1.lean ====
/-
  Hidden layer 1 of the reference, read at an index.

  The stage chain — a host dot_general, the bias row spread down the rows, two row sums each divided by 128, the
  centred block (computed twice), the reciprocal square root of variance plus ε, scale, shift, clip at zero — is read one
  operation at a time at (r, j): a matrix product as the sum over the 128 contracted entries, a row sum as the initial
  zero plus the sum of the row, a spread as the entry it repeats. Entry for entry it is the row function of Rows.lean
  applied to row r of the stage's aggregated input, which stays opaque.
-/
import proofs.«182177_j74929999446102_1_alg».proof.Proof.Gen.ReferenceIdeal.Read
import proofs.«182177_j74929999446102_1_alg».proof.Proof.Layers

noncomputable section

namespace Cert.Gcn.Ref

open Idealize.ShloMosaic Idealize.ShloMosaic.ValueIdx Cert.ReferenceIdeal Cert.ReferenceIdeal.Read Cert.Gcn

namespace Hidden1

/-! ### Where each layout operation reads its operand -/

theorem lidx_eq (r : Fin 100000) (j k : Fin 128) : lidx_main_v87 (ix2 r j) k = ix2 r k :=
  funext fun a => Fin.ext (by match a with | ⟨0, _⟩ => rfl | ⟨1, _⟩ => rfl)
theorem ridx_eq (r : Fin 100000) (j k : Fin 128) : ridx_main_v87 (ix2 r j) k = ix2 k j :=
  funext fun a => Fin.ext (by match a with | ⟨0, _⟩ => rfl | ⟨1, _⟩ => rfl)
theorem b1_eq (u : Fin 1) (j : Fin 128) : idx_main_v88 (ix2 u j) = ix1 j :=
  funext fun a => Fin.ext (by match a with | ⟨0, _⟩ => rfl)
theorem b2_eq (r : Fin 100000) (j : Fin 128) : idx_main_v89 (ix2 r j) = ix2 (0 : Fin 1) j :=
  funext fun a => Fin.ext (by match a with | ⟨0, _⟩ => rfl | ⟨1, _⟩ => rfl)
theorem s1_eq (r : Fin 100000) (k : Fin 128) : idx_main_v91 (ix1 r) k = ix2 r k :=
  funext fun a => Fin.ext (by match a with | ⟨0, _⟩ => rfl | ⟨1, _⟩ => rfl)
theorem c1_eq (r : Fin 100000) (u : Fin 1) : idx_main_v92 (ix2 r u) = ix1 r :=
  funext fun a => Fin.ext (by match a with | ⟨0, _⟩ => rfl)
theorem m1_eq (r : Fin 100000) (j : Fin 128) : idx_main_v95 (ix2 r j) = ix2 r (0 : Fin 1) :=
  funext fun a => Fin.ext (by match a with | ⟨0, _⟩ => rfl | ⟨1, _⟩ => rfl)
theorem s2_eq (r : Fin 100000) (k : Fin 128) : idx_main_v98 (ix1 r) k = ix2 r k :=
  funext fun a => Fin.ext (by match a with | ⟨0, _⟩ => rfl | ⟨1, _⟩ => rfl)
theorem c2_eq (r : Fin 100000) (u : Fin 1) : idx_main_v99 (ix2 r u) = ix1 r :=
  funext fun a => Fin.ext (by match a with | ⟨0, _⟩ => rfl)
theorem m2_eq (r : Fin 100000) (j : Fin 128) : idx_main_v102 (ix2 r j) = ix2 r (0 : Fin 1) :=
  funext fun a => Fin.ext (by match a with | ⟨0, _⟩ => rfl | ⟨1, _⟩ => rfl)
theorem m3_eq (r : Fin 100000) (j : Fin 128) : idx_main_v107 (ix2 r j) = ix2 r (0 : Fin 1) :=
  funext fun a => Fin.ext (by match a with | ⟨0, _⟩ => rfl | ⟨1, _⟩ => rfl)
theorem g1_eq (u : Fin 1) (j : Fin 128) : idx_main_v109 (ix2 u j) = ix1 j :=
  funext fun a => Fin.ext (by match a with | ⟨0, _⟩ => rfl)
theorem g2_eq (r : Fin 100000) (j : Fin 128) : idx_main_v110 (ix2 r j) = ix2 (0 : Fin 1) j :=
  funext fun a => Fin.ext (by match a with | ⟨0, _⟩ => rfl | ⟨1, _⟩ => rfl)
theorem e1_eq (u : Fin 1) (j : Fin 128) : idx_main_v112 (ix2 u j) = ix1 j :=
  funext fun a => Fin.ext (by match a with | ⟨0, _⟩ => rfl)
theorem e2_eq (r : Fin 100000) (j : Fin 128) : idx_main_v113 (ix2 r j) = ix2 (0 : Fin 1) j :=
  funext fun a => Fin.ext (by match a with | ⟨0, _⟩ => rfl | ⟨1, _⟩ => rfl)

section
variable (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal))

/-- The product plus bias at (r, j): the dense row function of row r of the aggregated input. -/
theorem y_at (r : Fin 100000) (j : Fin 128) :
    val_main_v90 (F := Ideal) x0 x1 x2 x3 x4 x5 x6 x7 x8 (ix2 r j) = (denseRow (fun k => (val_main_v86 (F := Ideal) x0 x1 x2 x3 x4 x5 x6) (ix2 r k)) x7 (vec x8)) j := by
  rw [val_main_v90_apply, val_main_v87_apply, val_main_v89_apply, val_main_v88_apply, b2_eq, b1_eq]
  refine congrArg (· + x8 (ix1 j)) (Finset.sum_congr rfl fun k _ => ?_)
  rw [lidx_eq, ridx_eq]

/-- The first row sum at row r. -/
theorem sum_at (r : Fin 100000) :
    val_main_v91 (F := Ideal) x0 x1 x2 x3 x4 x5 x6 x7 x8 (ix1 r) = ∑ k : Fin 128, val_main_v90 (F := Ideal) x0 x1 x2 x3 x4 x5 x6 x7 x8 (ix2 r k) := by
  rw [val_main_v91_apply, val_main_cst_19_apply]
  show Ideal.ofBits .f32 0x00000000#32 + _ = _
  rw [Ideal.ofBits_zero_f32, zero_add]
  exact Finset.sum_congr rfl fun k _ => by rw [s1_eq]

/-- The row mean at row r. -/
theorem mean_at (r : Fin 100000) (u : Fin 1) :
    val_main_v94 (F := Ideal) x0 x1 x2 x3 x4 x5 x6 x7 x8 (ix2 r u) = rowMean (fun k => val_main_v90 (F := Ideal) x0 x1 x2 x3 x4 x5 x6 x7 x8 (ix2 r k)) := by
  rw [val_main_v94_apply, val_main_v92_apply, val_main_v93_apply, val_main_cst_20_apply, c1_eq, sum_at]
  rfl

/-- The centred entry at (r, j), as the variance takes it. -/
theorem cen_at (r : Fin 100000) (j : Fin 128) :
    val_main_v96 (F := Ideal) x0 x1 x2 x3 x4 x5 x6 x7 x8 (ix2 r j) = val_main_v90 (F := Ideal) x0 x1 x2 x3 x4 x5 x6 x7 x8 (ix2 r j) - rowMean (fun k => val_main_v90 (F := Ideal) x0 x1 x2 x3 x4 x5 x6 x7 x8 (ix2 r k)) := by
  rw [val_main_v96_apply, val_main_v95_apply, m1_eq, mean_at]
  rfl

/-- The centred entry at (r, j), as the normalisation takes it (the same value, computed again). -/
theorem cen2_at (r : Fin 100000) (j : Fin 128) :
    val_main_v103 (F := Ideal) x0 x1 x2 x3 x4 x5 x6 x7 x8 (ix2 r j) = val_main_v90 (F := Ideal) x0 x1 x2 x3 x4 x5 x6 x7 x8 (ix2 r j) - rowMean (fun k => val_main_v90 (F := Ideal) x0 x1 x2 x3 x4 x5 x6 x7 x8 (ix2 r k)) := by
  rw [val_main_v103_apply, val_main_v102_apply, m2_eq, mean_at]
  rfl

/-- The second row sum (of the squares) at row r. -/
theorem sqsum_at (r : Fin 100000) :
    val_main_v98 (F := Ideal) x0 x1 x2 x3 x4 x5 x6 x7 x8 (ix1 r) = ∑ k : Fin 128, val_main_v97 (F := Ideal) x0 x1 x2 x3 x4 x5 x6 x7 x8 (ix2 r k) := by
  rw [val_main_v98_apply, val_main_cst_21_apply]
  show Ideal.ofBits .f32 0x00000000#32 + _ = _
  rw [Ideal.ofBits_zero_f32, zero_add]
  exact Finset.sum_congr rfl fun k _ => by rw [s2_eq]

/-- The row variance at row r. -/
theorem var_at (r : Fin 100000) (u : Fin 1) :
    val_main_v101 (F := Ideal) x0 x1 x2 x3 x4 x5 x6 x7 x8 (ix2 r u) = rowMean (fun k => val_main_v97 (F := Ideal) x0 x1 x2 x3 x4 x5 x6 x7 x8 (ix2 r k)) := by
  rw [val_main_v101_apply, val_main_v99_apply, val_main_v100_apply, val_main_cst_22_apply, c2_eq, sqsum_at]
  rfl

/-- The normalising factor at (r, j). -/
theorem rs_at (r : Fin 100000) (j : Fin 128) :
    val_main_v107 (F := Ideal) x0 x1 x2 x3 x4 x5 x6 x7 x8 (ix2 r j)
      = Ideal.rsqrt (rowMean (fun k => val_main_v97 (F := Ideal) x0 x1 x2 x3 x4 x5 x6 x7 x8 (ix2 r k)) + Ideal.ofBits .f32 0x3727C5AC#32) := by
  rw [val_main_v107_apply, m3_eq, val_main_v106_apply, val_main_v105_apply, var_at, val_main_v104_apply, val_main_cst_23_apply]
  rfl

/-- The scale row spread down the rows, at (r, j). -/
theorem g_at (r : Fin 100000) (j : Fin 128) : val_main_v110 (F := Ideal) x9 (ix2 r j) = x9 (ix1 j) := by
  rw [val_main_v110_apply, val_main_v109_apply, g2_eq, g1_eq]

/-- The shift row spread down the rows, at (r, j). -/
theorem e_at (r : Fin 100000) (j : Fin 128) : val_main_v113 (F := Ideal) x10 (ix2 r j) = x10 (ix1 j) := by
  rw [val_main_v113_apply, val_main_v112_apply, e2_eq, e1_eq]

/-- The hidden layer, read at (r, j): the row function of row r of the aggregated input. -/
theorem hidden_at (r : Fin 100000) (j : Fin 128) :
    val_main_v115 (F := Ideal) x0 x1 x2 x3 x4 x5 x6 x7 x8 x9 x10 (ix2 r j)
      = hiddenAt (val_main_v86 (F := Ideal) x0 x1 x2 x3 x4 x5 x6) x7 (vec x8) (vec x9) (vec x10) r j := by
  have hy : ∀ k : Fin 128, val_main_v90 (F := Ideal) x0 x1 x2 x3 x4 x5 x6 x7 x8 (ix2 r k) = (denseRow (fun k => (val_main_v86 (F := Ideal) x0 x1 x2 x3 x4 x5 x6) (ix2 r k)) x7 (vec x8)) k := fun k => y_at x0 x1 x2 x3 x4 x5 x6 x7 x8 r k
  have hmean : rowMean (fun k => val_main_v90 (F := Ideal) x0 x1 x2 x3 x4 x5 x6 x7 x8 (ix2 r k)) = rowMean (denseRow (fun k => (val_main_v86 (F := Ideal) x0 x1 x2 x3 x4 x5 x6) (ix2 r k)) x7 (vec x8)) := congrArg rowMean (funext hy)
  have hsq : (fun k : Fin 128 => val_main_v97 (F := Ideal) x0 x1 x2 x3 x4 x5 x6 x7 x8 (ix2 r k))
      = fun k => ((denseRow (fun k => (val_main_v86 (F := Ideal) x0 x1 x2 x3 x4 x5 x6) (ix2 r k)) x7 (vec x8)) k - rowMean (denseRow (fun k => (val_main_v86 (F := Ideal) x0 x1 x2 x3 x4 x5 x6) (ix2 r k)) x7 (vec x8))) * ((denseRow (fun k => (val_main_v86 (F := Ideal) x0 x1 x2 x3 x4 x5 x6) (ix2 r k)) x7 (vec x8)) k - rowMean (denseRow (fun k => (val_main_v86 (F := Ideal) x0 x1 x2 x3 x4 x5 x6) (ix2 r k)) x7 (vec x8))) :=
    funext fun k => by rw [val_main_v97_apply, cen_at, hy, hmean]; rfl
  rw [val_main_v115_apply, val_main_call1_v0_apply, val_main_call1_cst_apply, val_main_v114_apply, val_main_v111_apply, val_main_v108_apply,
    cen2_at, rs_at, g_at, e_at, hsq, hy, hmean]
  rfl

end

/-- The hidden layer is the whole-array hidden layer of its aggregated input. -/
theorem hidden_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal)) :
    val_main_v115 (F := Ideal) x0 x1 x2 x3 x4 x5 x6 x7 x8 x9 x10
      = hidden (val_main_v86 (F := Ideal) x0 x1 x2 x3 x4 x5 x6) x7 (vec x8) (vec x9) (vec x10) := by
  funext i
  obtain ⟨r, j, rfl⟩ : ∃ (r : Fin 100000) (j : Fin 128), i = ix2 r j := ⟨i 0, i 1, eq_ix2 i⟩
  exact hidden_at x0 x1 x2 x3 x4 x5 x6 x7 x8 x9 x10 r j

end Hidden1

end Cert.Gcn.Ref

end
-- ==== Proof.RefValue.lean ====
/-
  The reference, layer by layer, is the network function of Layers.lean.

  The reference program is one straight line of host operations. Its aggregation stages are the same host operations as
  the function `agg` (by unfolding the stages' definitions; the gather and the scatter-adds are never opened). Its two
  hidden layers are read in RefHidden0.lean and RefHidden1.lean; its last layer (a dot_general plus the bias row) is
  read here. Chaining the six equations gives the reference's result as the network function of the arguments.
-/
import proofs.«182177_j74929999446102_1_alg».proof.Proof.Gen.ReferenceIdeal.Read
import proofs.«182177_j74929999446102_1_alg».proof.Proof.Layers
import proofs.«182177_j74929999446102_1_alg».proof.Proof.RefHidden0
import proofs.«182177_j74929999446102_1_alg».proof.Proof.RefHidden1

noncomputable section

namespace Cert.Gcn.Ref

open Idealize.ShloMosaic Idealize.ShloMosaic.ValueIdx Cert.ReferenceIdeal Cert.ReferenceIdeal.Read Cert.Gcn

/-! ## The last layer of the reference -/

theorem p_lidx (r : Fin 100000) (j : Fin 64) (k : Fin 128) : lidx_main_v145 (ix2 r j) k = ix2 r k :=
  funext fun a => Fin.ext (by match a with | ⟨0, _⟩ => rfl | ⟨1, _⟩ => rfl)
theorem p_ridx (r : Fin 100000) (j : Fin 64) (k : Fin 128) : ridx_main_v145 (ix2 r j) k = ix2 k j :=
  funext fun a => Fin.ext (by match a with | ⟨0, _⟩ => rfl | ⟨1, _⟩ => rfl)
theorem p_b1 (u : Fin 1) (j : Fin 64) : idx_main_v146 (ix2 u j) = ix1 j :=
  funext fun a => Fin.ext (by match a with | ⟨0, _⟩ => rfl)
theorem p_b2 (r : Fin 100000) (j : Fin 64) : idx_main_v147 (ix2 r j) = ix2 (0 : Fin 1) j :=
  funext fun a => Fin.ext (by match a with | ⟨0, _⟩ => rfl | ⟨1, _⟩ => rfl)

/-- The reference's last layer, read at (r, j). -/
theorem plain_at (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal)) (r : Fin 100000) (j : Fin 64) :
    val_main_v148 (F := Ideal) x0 x1 x2 x3 x4 x5 x6 x7 x8 x9 x10 x11 x12 (ix2 r j) = plainAt (val_main_v144 (F := Ideal) x0 x1 x2 x3 x4 x5 x6 x7 x8 x9 x10) x11 (vec x12) r j := by
  rw [val_main_v148_apply, val_main_v145_apply, val_main_v147_apply, val_main_v146_apply, p_b2, p_b1]
  refine congrArg (· + x12 (ix1 j)) (Finset.sum_congr rfl fun k _ => ?_)
  rw [p_lidx, p_ridx]

/-- The reference's last layer is the whole-array last layer of its aggregated input. -/
theorem plain_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal)) :
    val_main_v148 (F := Ideal) x0 x1 x2 x3 x4 x5 x6 x7 x8 x9 x10 x11 x12 = plain (val_main_v144 (F := Ideal) x0 x1 x2 x3 x4 x5 x6 x7 x8 x9 x10) x11 (vec x12) := by
  funext i
  obtain ⟨r, j, rfl⟩ : ∃ (r : Fin 100000) (j : Fin 64), i = ix2 r j := ⟨i 0, i 1, eq_ix2 i⟩
  exact plain_at x0 x1 x2 x3 x4 x5 x6 x7 x8 x9 x10 x11 x12 r j

/-! ## The aggregation stages are `agg` -/

theorem agg0_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal)) :
    val_main_v28 (F := Ideal) x0 x1 x2 = agg x0 x1 x2 (degNorm x1) (degNorm x2) := rfl

theorem agg1_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal)) :
    val_main_v86 (F := Ideal) x0 x1 x2 x3 x4 x5 x6 = agg (val_main_v57 (F := Ideal) x0 x1 x2 x3 x4 x5 x6) x1 x2 (degNorm x1) (degNorm x2) := rfl

theorem agg2_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal)) :
    val_main_v144 (F := Ideal) x0 x1 x2 x3 x4 x5 x6 x7 x8 x9 x10 = agg (val_main_v115 (F := Ideal) x0 x1 x2 x3 x4 x5 x6 x7 x8 x9 x10) x1 x2 (degNorm x1) (degNorm x2) := rfl

/-! ## The whole reference -/

/-- The reference's result, as a function of its arguments, is the network function. -/
theorem value_eq (x0 : (⟨S100000x128, .f32⟩ : BufTy).Contents (Elt Ideal)) (x1 x2 : (⟨S1600000, .i32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 x9 x10 : (⟨S128, .f32⟩ : BufTy).Contents (Elt Ideal)) (x11 : (⟨S128x64, .f32⟩ : BufTy).Contents (Elt Ideal)) (x12 : (⟨S64, .f32⟩ : BufTy).Contents (Elt Ideal)) :
    val_main_v148 (F := Ideal) x0 x1 x2 x3 x4 x5 x6 x7 x8 x9 x10 x11 x12 = gcn x0 x1 x2 x3 x4 x5 x6 x7 x8 x9 x10 x11 x12 := by
  rw [plain_eq x0 x1 x2 x3 x4 x5 x6 x7 x8 x9 x10 x11 x12, agg2_eq x0 x1 x2 x3 x4 x5 x6 x7 x8 x9 x10 x11 x12, Hidden1.hidden_eq x0 x1 x2 x3 x4 x5 x6 x7 x8 x9 x10 x11 x12, agg1_eq x0 x1 x2 x3 x4 x5 x6 x7 x8 x9 x10 x11 x12,
    Hidden0.hidden_eq x0 x1 x2 x3 x4 x5 x6 x7 x8 x9 x10 x11 x12, agg0_eq x0 x1 x2 x3 x4 x5 x6 x7 x8 x9 x10 x11 x12]
  rfl

end Cert.Gcn.Ref

end
-- ==== Proof.lean ====
/-
  A three-layer graph convolution network: the tiled kernel against its plain reference, on the extended reals.

  Both programs aggregate over the edges with the very same host operations (degree norms, gather, scatter-add); that
  part is carried as one opaque function and never opened (Proof/Layers.lean). They differ in the dense part of each
  layer: the kernel runs it in three pipelined regions over fifty blocks of 2000 rows, with a vector-unit matrix
  product on operands narrowed to bf16 and lane sums; the reference runs it on the whole 100000-row array with a host
  dot_general and host row sums. On the extended reals narrowing is the identity and both products and both sums are
  the same finite sums, so each layer's dense part is, row by row, one function (Proof/Rows.lean):
      y = x·W + b,   out = max ((y − mean y) · rsqrt (mean ((y − mean y)²) + ε) · g + β) 0      (hidden layers)
      out = x·W + b                                                                               (last layer).
  Proof/KernelPayload.lean reads the kernel bodies at an index, Proof/Region0–2.lean turn "block t of the function" into
  "the whole output array is the function", Proof/KernelRun.lean and Proof/KernelValue.lean walk the program's buffers
  from the last boundary back to the launch memory, and Proof/RefValue.lean reads the reference. No finiteness of the
  inputs is used: every step is an equation that holds for all extended reals.

  The three frame claims are the generated frames (the reference's from its generated run); the idealization rewrote
  nothing, so `preserves` is trivial.
-/
import proofs.«182177_j74929999446102_1_alg».proof.Defs
import proofs.«182177_j74929999446102_1_alg».proof.Proof.Gen.Kernel
import proofs.«182177_j74929999446102_1_alg».proof.Proof.Gen.Kernel.Skeleton
import proofs.«182177_j74929999446102_1_alg».proof.Proof.Gen.Kernel.Launch
import proofs.«182177_j74929999446102_1_alg».proof.Proof.Gen.Kernel.Points
import proofs.«182177_j74929999446102_1_alg».proof.Proof.Gen.Kernel.Frame
import proofs.«182177_j74929999446102_1_alg».proof.Proof.Gen.KernelIdeal
import proofs.«182177_j74929999446102_1_alg».proof.Proof.Gen.KernelIdeal.Skeleton
import proofs.«182177_j74929999446102_1_alg».proof.Proof.Gen.KernelIdeal.Launch
import proofs.«182177_j74929999446102_1_alg».proof.Proof.Gen.KernelIdeal.Points
import proofs.«182177_j74929999446102_1_alg».proof.Proof.Gen.KernelIdeal.Frame
import proofs.«182177_j74929999446102_1_alg».proof.Proof.Gen.ReferenceIdeal
import proofs.«182177_j74929999446102_1_alg».proof.Proof.Gen.ReferenceIdeal.Run
import proofs.«182177_j74929999446102_1_alg».proof.Proof.Gen.ReferenceIdeal.Read
import proofs.«182177_j74929999446102_1_alg».proof.Proof.Gen.Pre_finite_inputs
import proofs.«182177_j74929999446102_1_alg».proof.Proof.KernelRun
import proofs.«182177_j74929999446102_1_alg».proof.Proof.KernelValue
import proofs.«182177_j74929999446102_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the network function of the arguments in
    their result buffers. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun r h c => ?_) (Cert.Gcn.KernelRun.run_final (F := Ideal) m ρ)
    exact ⟨(h c _ (Cert.KernelIdeal.Gen.mem_uc Cert.KernelIdeal.main_v70 (by decide))).trans (Cert.Gcn.Kernel.value m ρ c),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c),
      (h c _ (Cert.KernelIdeal.Gen.mem_uc Cert.KernelIdeal.main_arg11 (by decide))).trans (Cert.KernelIdeal.Gen.W6_main_arg11 m ρ c),
      (h c _ (Cert.KernelIdeal.Gen.mem_uc Cert.KernelIdeal.main_arg12 (by decide))).trans (Cert.KernelIdeal.Gen.W6_main_arg12 m ρ c)⟩
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v148_eq, Cert.Gcn.Ref.value_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
